-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x128 : Shape := ⟨2, ![400, 128]⟩
abbrev S400x64 : Shape := ⟨2, ![400, 64]⟩
abbrev S400 : Shape := ⟨1, ![400]⟩
abbrev S400x1 : Shape := ⟨2, ![400, 1]⟩

abbrev nBuf : Space → Nat
  | .hbm => 10
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S10000x128, .f32⟩
  | .hbm, ⟨8, _⟩ => ⟨S1x64, .f32⟩
  | .hbm, ⟨9, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S128x64, .f32⟩
  | .local _ .vmem, ⟨12, _⟩ => ⟨S1x64, .f32⟩
  | .local _ .vmem, ⟨13, _⟩ => ⟨S400x64, .f32⟩
  | .local _ .vmem, ⟨14, _⟩ => ⟨S400x64, .f32⟩
  | .local _ .vmem, ⟨15, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.BitsBody0.lean ====
/-
  The body of pallas_call 0 run on whole staging buffers, in its two cases: at the grid's first point it first stores the
  small dense factor into the scratch buffer and then computes the block of rows from it; at every later point it
  computes the block of rows from the scratch as the first point left it. Each run ends with the inputs as they were
  and with the pieces its stores wrote into the output block and into the scratch.
-/
import proofs.«153151_g1580547973942_cont_week2b_924_2_alg».proof.Proof.Gen.Kernel.Launch
import proofs.«153151_g1580547973942_cont_week2b_924_2_alg».proof.Proof.Gen.Kernel.Skeleton
import proofs.«153151_g1580547973942_cont_week2b_924_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The body's branch condition: the grid coordinate is 0. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The first point: the scratch (at anything) receives the dense factor, the output block (at anything) its rows. -/
noncomputable def kernelRun0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i)
    (x1 : Vec F S400x10000 .f32) (x2 : Vec F S10000x128 .f32) (x3 : Vec F S128x128 .f32) (x4 : Vec F S1x128 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer1_kernel i arg1 harg1 arg2 harg2 arg3 harg3 arg4 harg4 arg5 harg5 arg6 harg6) K } := by
  refine ⟨?_, ?_, fun E K => ?run⟩
  case run =>
    simp only [cc0__layer1_kernel_eq_skeleton]; unfold cc0__layer1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- A later point: the scratch holds what the first point left and stays; the output block (at anything) receives its rows. -/
noncomputable def kernelRun0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : ¬cond0 i)
    (x1 : Vec F S400x10000 .f32) (x2 : Vec F S10000x128 .f32) (x3 : Vec F S128x128 .f32) (x4 : Vec F S1x128 .f32) (xs : Vec F S10000x128 .f32) :
    { L5 : List (View.Piece (Elt F) S400x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc0__layer1_kernel i arg1 harg1 arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4; obtain rfl := harg6.eq_unread hf6
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.Kernel.Hand

end
-- ==== Proof.BitsRegion0.lean ====
/-
  pallas_call 0 as a region entered with the TensorCore's buffers at given contents: each window's block at a
  grid point, what the body leaves in the output block and in the scratch point by point (the scratch keeps what the
  first point stored), the invariant carrying the scratch between points, and the body's obligation at every point.
-/
import proofs.«153151_g1580547973942_cont_week2b_924_2_alg».proof.Proof.BitsBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The staging memrefs at a point, the scratch, and the views through which contents are stated. -/
abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev scM0 : Memref sig .tc .vmem S10000x128 .f32 := Memref.whole cc0_scratch0
abbrev VO0 : View sig .tc .vmem S400x128 .f32 := (Memref.whole cc0_stg4_0 : Memref sig .tc .vmem S400x128 .f32).view
abbrev VS0 : View sig .tc .vmem S10000x128 .f32 := (scM0).view

/-- The scoped buffers of the other pallas_call, each at some contents: they ride through this region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant before the first point is the scratch at anything beside the other scoped buffers and the
    generator register, -/
theorem PhiA0_out (c : Dev nD) :
    (Pipeline.ΦA spec0 c : sProp 𝕄) ⊢ iprop(((∃ d, owns (c : Thread nD τ) scM0 fullShare d) ∗ rest0 c) ∗ (∃ r, prngReg c r)) := by
  unfold Pipeline.ΦA rest0; rw [scopedRest0_eq]; simp only [scM0, owns_whole]
  iintro ⟨⟨HS, R1, R2, R3, R4, R5, R6, R7, R8⟩, Hg⟩
  isplitl [HS R1 R2 R3 R4 R5 R6 R7 R8]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg
/-- and conversely. -/
theorem PhiA0_in (c : Dev nD) :
    iprop(((∃ d, owns (c : Thread nD τ) scM0 fullShare d) ∗ rest0 c) ∗ (∃ r, prngReg c r)) ⊢ (Pipeline.ΦA spec0 c : sProp 𝕄) := by
  unfold Pipeline.ΦA rest0; rw [scopedRest0_eq]; simp only [scM0, owns_whole]
  iintro ⟨⟨HS, R1, R2, R3, R4, R5, R6, R7, R8⟩, Hg⟩
  isplitl [HS R1 R2 R3 R4 R5 R6 R7 R8]
  ·
    isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

/-! What the first point's stores leave: the pieces cover the output block and the scratch. -/
theorem cover0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) (y : S400x128.Idx) :
    ∃ pc ∈ (kernelRun0_A c i arg1 harg1 arg2 harg2 arg3 harg3 arg4 harg4 arg5 harg5 arg6 harg6 hc x1 x2 x3 x4).1, y ∈ pc.1.set :=
  View.cover_of_tiledL (kernelRun0_A c i arg1 harg1 arg2 harg2 arg3 harg3 arg4 harg4 arg5 harg5 arg6 harg6 hc x1 x2 x3 x4).1 S400x128.size (by sl_kernel_rfl) y
theorem scover0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) (y : S10000x128.Idx) :
    ∃ pc ∈ (kernelRun0_A c i arg1 harg1 arg2 harg2 arg3 harg3 arg4 harg4 arg5 harg5 arg6 harg6 hc x1 x2 x3 x4).2.1, y ∈ pc.1.set :=
  View.cover_of_tiledL (kernelRun0_A c i arg1 harg1 arg2 harg2 arg3 harg3 arg4 harg4 arg5 harg5 arg6 harg6 hc x1 x2 x3 x4).2.1 S10000x128.size (by sl_kernel_rfl) y
theorem cover0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : ¬cond0 i) (x1 : Vec F S400x10000 .f32) (x2 : Vec F S10000x128 .f32) (x3 : Vec F S128x128 .f32) (x4 : Vec F S1x128 .f32) (xs : Vec F S10000x128 .f32) (y : S400x128.Idx) :
    ∃ pc ∈ (kernelRun0_B c i arg1 harg1 arg2 harg2 arg3 harg3 arg4 harg4 arg5 harg5 arg6 harg6 hc x1 x2 x3 x4 xs).1, y ∈ pc.1.set :=
  View.cover_of_tiledL (kernelRun0_B c i arg1 harg1 arg2 harg2 arg3 harg3 arg4 harg4 arg5 harg5 arg6 harg6 hc x1 x2 x3 x4 xs).1 S400x128.size (by sl_kernel_rfl) y

/-- The output block after the first point, -/
def out0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) : Vec F S400x128 .f32 :=
  VO0.read (Elt F) (VO0.writes (Elt F) VO0.junk (kernelRun0_A c i arg1 harg1 arg2 harg2 arg3 harg3 arg4 harg4 arg5 harg5 arg6 harg6 hc x1 x2 x3 x4).1)
/-- the scratch after it, -/
def sout0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) : Vec F S10000x128 .f32 :=
  VS0.read (Elt F) (VS0.writes (Elt F) VS0.junk (kernelRun0_A c i arg1 harg1 arg2 harg2 arg3 harg3 arg4 harg4 arg5 harg5 arg6 harg6 hc x1 x2 x3 x4).2.1)
/-- and the output block after a later point, computed from the scratch as it stands. -/
def out0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : ¬cond0 i) (x1 : Vec F S400x10000 .f32) (x2 : Vec F S10000x128 .f32) (x3 : Vec F S128x128 .f32) (x4 : Vec F S1x128 .f32) (xs : Vec F S10000x128 .f32) : Vec F S400x128 .f32 :=
  VO0.read (Elt F) (VO0.writes (Elt F) VO0.junk (kernelRun0_B c i arg1 harg1 arg2 harg2 arg3 harg3 arg4 harg4 arg5 harg5 arg6 harg6 hc x1 x2 x3 x4 xs).1)

/-- What the output block and the scratch hold after the body at position n: the first point stores both; every
    later point stores the output block from the scratch the point before left, and leaves the scratch as it is. -/
def outsAt0 (c : Dev nD) : (n : ℕ) → n < cfg0.N → Vec F S400x128 .f32 × Vec F S10000x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩))
  | n + 1, hn => (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => absurd ((hcond0 ⟨n + 1, hn⟩).mp h) (Nat.succ_ne_zero n)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
      (outsAt0 c n (Nat.lt_of_succ_lt hn)).2)

theorem outsAt0_A (c : Dev nD) (t : Fin cfg0.N) (h0 : t.val = 0) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t),
      sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact absurd rfl h0
  | succ n => exact rfl

/-- The invariant before position n: before the first point the scratch at anything; afterwards the scratch at what
    the point before left in it; beside it the other scoped buffers and the generator register. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ rest0 c) ∗ (∃ r, prngReg c r)) := by
  cases n with
  | zero => exact absurd rfl hz
  | succ n => rfl

/-- The proof data of the pipeline: the arrays as the region finds them; after the body at point t each input's buffer
    at its block and the output's at what the point stores; the invariant carrying the scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4800000 in
/-- The body at any point: the inputs' buffers hold their blocks; at the first point the invariant hands over the
    scratch at anything and takes it back at what the point stored; at a later point it hands it over at what the point
    before left and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h0 : t.val = 0
  · rw [outsAt0_A V c t h0]
    unfold out0_A sout0_A; (try dsimp only)
    rw [PhiS0_castSucc V c t, PhiS0_zero V c _ _ h0]
    iintro ⟨HP, Ho, ⟨%d0, H0⟩, ⟨%d1, H1⟩, ⟨%d2, H2⟩, ⟨%d3, H3⟩, ⟨%d4, H4⟩⟩
    have hsplit := PhiA0_out (F := F) c
    ihave HP' := hsplit $$ HP
    icases HP' with ⟨⟨HS, Hrest⟩, Hg⟩
    iapply ((kernelRun0_A c (grid0.coords t) _ _ _ _ _ _ _ _ _ _ _ _ ((hcond0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt0_B V c t h0]
    unfold out0_B; (try dsimp only)
    rw [PhiS0_castSucc V c t, PhiS0_pos V c _ _ h0]
    iintro ⟨⟨⟨HS, Hrest⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the scratch's contents are forgotten. -/
theorem hout0 (c : Dev nD) : (dat0 V c).Φ (Fin.last cfg0.N) ⊢ Pipeline.ΦA spec0 c := by
  have hN : cfg0.N = 25 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega)]
  refine .trans ?_ (PhiA0_in c)
  iintro ⟨⟨HS, Hrest⟩, Hg⟩
  isplitl [HS Hrest]
  · isplitl [HS]; · iexists _; iexact HS
    iexact Hrest
  iexact Hg

end Cert.Kernel.Hand

end
-- ==== Proof.BitsBody1.lean ====
/-
  The body of pallas_call 1 run on whole staging buffers, in its two cases: at the grid's first point it first stores the
  small dense factor into the scratch buffer and then computes the block of rows from it; at every later point it
  computes the block of rows from the scratch as the first point left it. Each run ends with the inputs as they were
  and with the pieces its stores wrote into the output block and into the scratch.
-/
import proofs.«153151_g1580547973942_cont_week2b_924_2_alg».proof.Proof.Gen.Kernel.Launch
import proofs.«153151_g1580547973942_cont_week2b_924_2_alg».proof.Proof.Gen.Kernel.Skeleton
import proofs.«153151_g1580547973942_cont_week2b_924_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The body's branch condition: the grid coordinate is 0. -/
abbrev cond1 (i : grid1.Coords) : Prop :=
  (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- The first point: the scratch (at anything) receives the dense factor, the output block (at anything) its rows. -/
noncomputable def kernelRun1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i)
    (x1 : Vec F S400x10000 .f32) (x2 : Vec F S10000x128 .f32) (x3 : Vec F S128x64 .f32) (x4 : Vec F S1x64 .f32) :
    Σ' (L5 : List (View.Piece (Elt F) S400x64 .f32)), { LS : List (View.Piece (Elt F) S10000x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc1__layer2_kernel i arg1 harg1 arg2 harg2 arg3 harg3 arg4 harg4 arg5 harg5 arg6 harg6) K } := by
  refine ⟨?_, ?_, fun E K => ?run⟩
  case run =>
    simp only [cc1__layer2_kernel_eq_skeleton]; unfold cc1__layer2_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- A later point: the scratch holds what the first point left and stays; the output block (at anything) receives its rows. -/
noncomputable def kernelRun1_B (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : ¬cond1 i)
    (x1 : Vec F S400x10000 .f32) (x2 : Vec F S10000x128 .f32) (x3 : Vec F S128x64 .f32) (x4 : Vec F S1x64 .f32) (xs : Vec F S10000x64 .f32) :
    { L5 : List (View.Piece (Elt F) S400x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc1__layer2_kernel i arg1 harg1 arg2 harg2 arg3 harg3 arg4 harg4 arg5 harg5 arg6 harg6) K } := by
  refine ⟨?_, fun E K => ?run⟩
  case run =>
    simp only [cc1__layer2_kernel_eq_skeleton]; unfold cc1__layer2_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4; obtain rfl := harg6.eq_unread hf6
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.Kernel.Hand

end
-- ==== Proof.BitsRegion1.lean ====
/-
  pallas_call 1 as a region entered with the TensorCore's buffers at given contents: each window's block at a
  grid point, what the body leaves in the output block and in the scratch point by point (the scratch keeps what the
  first point stored), the invariant carrying the scratch between points, and the body's obligation at every point.
-/
import proofs.«153151_g1580547973942_cont_week2b_924_2_alg».proof.Proof.BitsBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The staging memrefs at a point, the scratch, and the views through which contents are stated. -/
abbrev ms1_0 (t : Fin cfg1.N) : Memref sig .tc .vmem S400x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x64 .f32 := win1_4.stage (cfg1.slots t 4)
abbrev hs1_4 (t : Fin cfg1.N) : (ms1_4 t).IsWhole := hstage1_4 ((cfg1.slots t 4).cast nbuf1_4)
abbrev scM1 : Memref sig .tc .vmem S10000x64 .f32 := Memref.whole cc1_scratch0
abbrev VO1 : View sig .tc .vmem S400x64 .f32 := (Memref.whole cc1_stg4_0 : Memref sig .tc .vmem S400x64 .f32).view
abbrev VS1 : View sig .tc .vmem S10000x64 .f32 := (scM1).view

/-- The scoped buffers of the other pallas_call, each at some contents: they ride through this region untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's invariant before the first point is the scratch at anything beside the other scoped buffers and the
    generator register, -/
theorem PhiA1_out (c : Dev nD) :
    (Pipeline.ΦA spec1 c : sProp 𝕄) ⊢ iprop(((∃ d, owns (c : Thread nD τ) scM1 fullShare d) ∗ rest1 c) ∗ (∃ r, prngReg c r)) := by
  unfold Pipeline.ΦA rest1; rw [scopedRest1_eq]; simp only [scM1, owns_whole]
  iintro ⟨⟨R1, R2, R3, R4, R5, R6, R7, R8, HS⟩, Hg⟩
  isplitl [HS R1 R2 R3 R4 R5 R6 R7 R8]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg
/-- and conversely. -/
theorem PhiA1_in (c : Dev nD) :
    iprop(((∃ d, owns (c : Thread nD τ) scM1 fullShare d) ∗ rest1 c) ∗ (∃ r, prngReg c r)) ⊢ (Pipeline.ΦA spec1 c : sProp 𝕄) := by
  unfold Pipeline.ΦA rest1; rw [scopedRest1_eq]; simp only [scM1, owns_whole]
  iintro ⟨⟨HS, R1, R2, R3, R4, R5, R6, R7, R8⟩, Hg⟩
  isplitl [HS R1 R2 R3 R4 R5 R6 R7 R8]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

/-! What the first point's stores leave: the pieces cover the output block and the scratch. -/
theorem cover1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) (y : S400x64.Idx) :
    ∃ pc ∈ (kernelRun1_A c i arg1 harg1 arg2 harg2 arg3 harg3 arg4 harg4 arg5 harg5 arg6 harg6 hc x1 x2 x3 x4).1, y ∈ pc.1.set :=
  View.cover_of_tiledL (kernelRun1_A c i arg1 harg1 arg2 harg2 arg3 harg3 arg4 harg4 arg5 harg5 arg6 harg6 hc x1 x2 x3 x4).1 S400x64.size (by sl_kernel_rfl) y
theorem scover1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) (y : S10000x64.Idx) :
    ∃ pc ∈ (kernelRun1_A c i arg1 harg1 arg2 harg2 arg3 harg3 arg4 harg4 arg5 harg5 arg6 harg6 hc x1 x2 x3 x4).2.1, y ∈ pc.1.set :=
  View.cover_of_tiledL (kernelRun1_A c i arg1 harg1 arg2 harg2 arg3 harg3 arg4 harg4 arg5 harg5 arg6 harg6 hc x1 x2 x3 x4).2.1 S10000x64.size (by sl_kernel_rfl) y
theorem cover1_B (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : ¬cond1 i) (x1 : Vec F S400x10000 .f32) (x2 : Vec F S10000x128 .f32) (x3 : Vec F S128x64 .f32) (x4 : Vec F S1x64 .f32) (xs : Vec F S10000x64 .f32) (y : S400x64.Idx) :
    ∃ pc ∈ (kernelRun1_B c i arg1 harg1 arg2 harg2 arg3 harg3 arg4 harg4 arg5 harg5 arg6 harg6 hc x1 x2 x3 x4 xs).1, y ∈ pc.1.set :=
  View.cover_of_tiledL (kernelRun1_B c i arg1 harg1 arg2 harg2 arg3 harg3 arg4 harg4 arg5 harg5 arg6 harg6 hc x1 x2 x3 x4 xs).1 S400x64.size (by sl_kernel_rfl) y

/-- The output block after the first point, -/
def out1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) : Vec F S400x64 .f32 :=
  VO1.read (Elt F) (VO1.writes (Elt F) VO1.junk (kernelRun1_A c i arg1 harg1 arg2 harg2 arg3 harg3 arg4 harg4 arg5 harg5 arg6 harg6 hc x1 x2 x3 x4).1)
/-- the scratch after it, -/
def sout1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) : Vec F S10000x64 .f32 :=
  VS1.read (Elt F) (VS1.writes (Elt F) VS1.junk (kernelRun1_A c i arg1 harg1 arg2 harg2 arg3 harg3 arg4 harg4 arg5 harg5 arg6 harg6 hc x1 x2 x3 x4).2.1)
/-- and the output block after a later point, computed from the scratch as it stands. -/
def out1_B (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : ¬cond1 i) (x1 : Vec F S400x10000 .f32) (x2 : Vec F S10000x128 .f32) (x3 : Vec F S128x64 .f32) (x4 : Vec F S1x64 .f32) (xs : Vec F S10000x64 .f32) : Vec F S400x64 .f32 :=
  VO1.read (Elt F) (VO1.writes (Elt F) VO1.junk (kernelRun1_B c i arg1 harg1 arg2 harg2 arg3 harg3 arg4 harg4 arg5 harg5 arg6 harg6 hc x1 x2 x3 x4 xs).1)

/-- What the output block and the scratch hold after the body at position n: the first point stores both; every
    later point stores the output block from the scratch the point before left, and leaves the scratch as it is. -/
def outsAt1 (c : Dev nD) : (n : ℕ) → n < cfg1.N → Vec F S400x64 .f32 × Vec F S10000x64 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩))
  | n + 1, hn => (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => absurd ((hcond1 ⟨n + 1, hn⟩).mp h) (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
      (outsAt1 c n (Nat.lt_of_succ_lt hn)).2)

theorem outsAt1_A (c : Dev nD) (t : Fin cfg1.N) (h0 : t.val = 0) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t),
      sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact absurd rfl h0
  | succ n => exact rfl

/-- The invariant before position n: before the first point the scratch at anything; afterwards the scratch at what
    the point before left in it; beside it the other scoped buffers and the generator register. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ rest1 c) ∗ (∃ r, prngReg c r)) := by
  cases n with
  | zero => exact absurd rfl hz
  | succ n => rfl

/-- The proof data of the pipeline: the arrays as the region finds them; after the body at point t each input's buffer
    at its block and the output's at what the point stores; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' buffers hold their blocks; at the first point the invariant hands over the
    scratch at anything and takes it back at what the point stored; at a later point it hands it over at what the point
    before left and takes it back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val = 0
  · rw [outsAt1_A V c t h0]
    unfold out1_A sout1_A; (try dsimp only)
    rw [PhiS1_castSucc V c t, PhiS1_zero V c _ _ h0]
    iintro ⟨HP, Ho, ⟨%d0, H0⟩, ⟨%d1, H1⟩, ⟨%d2, H2⟩, ⟨%d3, H3⟩, ⟨%d4, H4⟩⟩
    have hsplit := PhiA1_out (F := F) c
    ihave HP' := hsplit $$ HP
    icases HP' with ⟨⟨HS, Hrest⟩, Hg⟩
    iapply ((kernelRun1_A c (grid1.coords t) _ _ _ _ _ _ _ _ _ _ _ _ ((hcond1 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _ _ _)
  · rw [outsAt1_B V c t h0]
    unfold out1_B; (try dsimp only)
    rw [PhiS1_castSucc V c t, PhiS1_pos V c _ _ h0]
    iintro ⟨⟨⟨HS, Hrest⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's form back: the scratch's contents are forgotten. -/
theorem hout1 (c : Dev nD) : (dat1 V c).Φ (Fin.last cfg1.N) ⊢ Pipeline.ΦA spec1 c := by
  have hN : cfg1.N = 25 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  refine .trans ?_ (PhiA1_in c)
  iintro ⟨⟨HS, Hrest⟩, Hg⟩
  isplitl [HS Hrest]
  · isplitl [HS]; · iexists _; iexact HS
    iexact Hrest
  iexact Hg

end Cert.Kernel.Hand

end
-- ==== Proof.BitsFrame.lean ====
/-
  The whole program as four segments — the reshape of the first bias, pallas_call 0, the reshape of the second bias,
  pallas_call 1 — with the contents of every unscoped buffer named at each boundary: a host stretch applies its
  operations; a region leaves its arrays at what its write-backs leave and every other buffer as entered. Every weakly
  fair execution terminates with the buffers at the last boundary's contents; the arguments walk back through the
  boundaries to the launch memory, and the result buffer holds what pallas_call 1's write-backs leave.
-/
import proofs.«153151_g1580547973942_cont_week2b_924_2_alg».proof.Proof.BitsRegion0
import proofs.«153151_g1580547973942_cont_week2b_924_2_alg».proof.Proof.BitsRegion1
import proofs.«153151_g1580547973942_cont_week2b_924_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the first reshape (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second reshape (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (U1 m) c).arrAt_in 1 rfl _).trans (A_eq0 (U1 m) c 1))
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat1 (U3 m) c).arrAt_in 0 rfl _).trans (A_eq1 (U3 m) c 0))
    _ = W2 m c (Proc.devRef .tc main_arg1) := StableHlo.after_of_writes_sub hostOps1 _ hostOps1_writes (by decide)
    _ = W1 m c (Proc.devRef .tc main_arg1) := (W2_arr m c 0).trans (((dat0 (U1 m) c).arrAt_in 0 rfl _).trans (A_eq0 (U1 m) c 0))
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dat0 (U1 m) c).arrAt_in 2 rfl _).trans (A_eq0 (U1 m) c 2))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := (W4_arr m c 2).trans (((dat1 (U3 m) c).arrAt_in 2 rfl _).trans (A_eq1 (U3 m) c 2))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- The result buffer ends at what pallas_call 1's write-backs leave in it. -/
theorem W4_main_v0 (c : Dev nD) : W4 m c (Proc.devRef .tc main_v0) = (dat1 (U3 m) c).arrAt 4 cfg1.N := W4_arr m c 4

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the write-backs leave;
    the generator register and the scoped buffers go into the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (U1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the write-backs leave;
    the generator register and the scoped buffers go into the invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (U3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev hsegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (hsegs m) := (main_chain c).trans (by chain_rfl)

set_option backward.isDefEq.respectTransparency.types false in
/-- From any memory with zero counters every weakly fair execution of the program terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run read at the result and at the six arguments. -/
theorem run_main : θ_run defs (onTc (τ := τ) (main (F := F))) ⟨m, fun _ => 0, ρ⟩ (fun r => ∀ c : Dev nD,
      r.2.mem ((c.tc : Thread nD τ).loc main_v0) = (dat1 (U3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v0 (by decide))).trans (W4_main_v0 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.IdealBody0.lean ====
/-
  The body of pallas_call 0 run on whole staging buffers, in its two cases: at the grid's first point it first stores the
  small dense factor into the scratch buffer and then computes the block of rows from it; at every later point it
  computes the block of rows from the scratch as the first point left it. Each run ends with the inputs as they were
  and with the pieces its stores wrote into the output block and into the scratch.
-/
import proofs.«153151_g1580547973942_cont_week2b_924_2_alg».proof.Proof.Gen.KernelIdeal.Launch
import proofs.«153151_g1580547973942_cont_week2b_924_2_alg».proof.Proof.Gen.KernelIdeal.Skeleton
import proofs.«153151_g1580547973942_cont_week2b_924_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The body's branch condition: the grid coordinate is 0. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- The first point: the scratch (at anything) receives the dense factor, the output block (at anything) its rows. -/
noncomputable def kernelRun0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i)
    (x1 : Vec F S400x10000 .f32) (x2 : Vec F S10000x128 .f32) (x3 : Vec F S128x128 .f32) (x4 : Vec F S1x128 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__layer1_kernel i arg1 harg1 arg2 harg2 arg3 harg3 arg4 harg4 arg5 harg5 arg6 harg6) K } := by
  refine ⟨?_, ?_, fun E K => ?run⟩
  case run =>
    simp only [cc0__layer1_kernel_eq_skeleton]; unfold cc0__layer1_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- A later point: the scratch holds what the first point left and stays; the output block (at anything) receives its rows. -/
noncomputable def kernelRun0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : ¬cond0 i)
    (x1 : Vec F S400x10000 .f32) (x2 : Vec F S10000x128 .f32) (x3 : Vec F S128x128 .f32) (x4 : Vec F S1x128 .f32) (xs : Vec F S10000x128 .f32) :
    { L5 : List (View.Piece (Elt F) S400x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc0__layer1_kernel i arg1 harg1 arg2 harg2 arg3 harg3 arg4 harg4 arg5 harg5 arg6 harg6) K } := by
  refine ⟨?_, fun E K => ?run⟩
  case run =>
    simp only [cc0__layer1_kernel_eq_skeleton]; unfold cc0__layer1_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4; obtain rfl := harg6.eq_unread hf6
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.KernelIdeal.Hand

end
-- ==== Proof.IdealRegion0.lean ====
/-
  pallas_call 0 as a region entered with the TensorCore's buffers at given contents: each window's block at a
  grid point, what the body leaves in the output block and in the scratch point by point (the scratch keeps what the
  first point stored), the invariant carrying the scratch between points, and the body's obligation at every point.
-/
import proofs.«153151_g1580547973942_cont_week2b_924_2_alg».proof.Proof.IdealBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! The staging memrefs at a point, the scratch, and the views through which contents are stated. -/
abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
abbrev scM0 : Memref sig .tc .vmem S10000x128 .f32 := Memref.whole cc0_scratch0
abbrev VO0 : View sig .tc .vmem S400x128 .f32 := (Memref.whole cc0_stg4_0 : Memref sig .tc .vmem S400x128 .f32).view
abbrev VS0 : View sig .tc .vmem S10000x128 .f32 := (scM0).view

/-- The scoped buffers of the other pallas_call, each at some contents: they ride through this region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant before the first point is the scratch at anything beside the other scoped buffers and the
    generator register, -/
theorem PhiA0_out (c : Dev nD) :
    (Pipeline.ΦA spec0 c : sProp 𝕄) ⊢ iprop(((∃ d, owns (c : Thread nD τ) scM0 fullShare d) ∗ rest0 c) ∗ (∃ r, prngReg c r)) := by
  unfold Pipeline.ΦA rest0; rw [scopedRest0_eq]; simp only [scM0, owns_whole]
  iintro ⟨⟨HS, R1, R2, R3, R4, R5, R6, R7, R8⟩, Hg⟩
  isplitl [HS R1 R2 R3 R4 R5 R6 R7 R8]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg
/-- and conversely. -/
theorem PhiA0_in (c : Dev nD) :
    iprop(((∃ d, owns (c : Thread nD τ) scM0 fullShare d) ∗ rest0 c) ∗ (∃ r, prngReg c r)) ⊢ (Pipeline.ΦA spec0 c : sProp 𝕄) := by
  unfold Pipeline.ΦA rest0; rw [scopedRest0_eq]; simp only [scM0, owns_whole]
  iintro ⟨⟨HS, R1, R2, R3, R4, R5, R6, R7, R8⟩, Hg⟩
  isplitl [HS R1 R2 R3 R4 R5 R6 R7 R8]
  ·
    isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

/-! What the first point's stores leave: the pieces cover the output block and the scratch. -/
theorem cover0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) (y : S400x128.Idx) :
    ∃ pc ∈ (kernelRun0_A c i arg1 harg1 arg2 harg2 arg3 harg3 arg4 harg4 arg5 harg5 arg6 harg6 hc x1 x2 x3 x4).1, y ∈ pc.1.set :=
  View.cover_of_tiledL (kernelRun0_A c i arg1 harg1 arg2 harg2 arg3 harg3 arg4 harg4 arg5 harg5 arg6 harg6 hc x1 x2 x3 x4).1 S400x128.size (by sl_kernel_rfl) y
theorem scover0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) (y : S10000x128.Idx) :
    ∃ pc ∈ (kernelRun0_A c i arg1 harg1 arg2 harg2 arg3 harg3 arg4 harg4 arg5 harg5 arg6 harg6 hc x1 x2 x3 x4).2.1, y ∈ pc.1.set :=
  View.cover_of_tiledL (kernelRun0_A c i arg1 harg1 arg2 harg2 arg3 harg3 arg4 harg4 arg5 harg5 arg6 harg6 hc x1 x2 x3 x4).2.1 S10000x128.size (by sl_kernel_rfl) y
theorem cover0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : ¬cond0 i) (x1 : Vec F S400x10000 .f32) (x2 : Vec F S10000x128 .f32) (x3 : Vec F S128x128 .f32) (x4 : Vec F S1x128 .f32) (xs : Vec F S10000x128 .f32) (y : S400x128.Idx) :
    ∃ pc ∈ (kernelRun0_B c i arg1 harg1 arg2 harg2 arg3 harg3 arg4 harg4 arg5 harg5 arg6 harg6 hc x1 x2 x3 x4 xs).1, y ∈ pc.1.set :=
  View.cover_of_tiledL (kernelRun0_B c i arg1 harg1 arg2 harg2 arg3 harg3 arg4 harg4 arg5 harg5 arg6 harg6 hc x1 x2 x3 x4 xs).1 S400x128.size (by sl_kernel_rfl) y

/-- The output block after the first point, -/
def out0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) : Vec F S400x128 .f32 :=
  VO0.read (Elt F) (VO0.writes (Elt F) VO0.junk (kernelRun0_A c i arg1 harg1 arg2 harg2 arg3 harg3 arg4 harg4 arg5 harg5 arg6 harg6 hc x1 x2 x3 x4).1)
/-- the scratch after it, -/
def sout0_A (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) : Vec F S10000x128 .f32 :=
  VS0.read (Elt F) (VS0.writes (Elt F) VS0.junk (kernelRun0_A c i arg1 harg1 arg2 harg2 arg3 harg3 arg4 harg4 arg5 harg5 arg6 harg6 hc x1 x2 x3 x4).2.1)
/-- and the output block after a later point, computed from the scratch as it stands. -/
def out0_B (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : ¬cond0 i) (x1 : Vec F S400x10000 .f32) (x2 : Vec F S10000x128 .f32) (x3 : Vec F S128x128 .f32) (x4 : Vec F S1x128 .f32) (xs : Vec F S10000x128 .f32) : Vec F S400x128 .f32 :=
  VO0.read (Elt F) (VO0.writes (Elt F) VO0.junk (kernelRun0_B c i arg1 harg1 arg2 harg2 arg3 harg3 arg4 harg4 arg5 harg5 arg6 harg6 hc x1 x2 x3 x4 xs).1)

/-- What the output block and the scratch hold after the body at position n: the first point stores both; every
    later point stores the output block from the scratch the point before left, and leaves the scratch as it is. -/
def outsAt0 (c : Dev nD) : (n : ℕ) → n < cfg0.N → Vec F S400x128 .f32 × Vec F S10000x128 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0 ⟨0, hn⟩).mpr rfl) (iblk0 V c 0 ⟨0, hn⟩) (iblk0 V c 1 ⟨0, hn⟩) (iblk0 V c 2 ⟨0, hn⟩) (iblk0 V c 3 ⟨0, hn⟩))
  | n + 1, hn => (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => absurd ((hcond0 ⟨n + 1, hn⟩).mp h) (Nat.succ_ne_zero n)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
      (outsAt0 c n (Nat.lt_of_succ_lt hn)).2)

theorem outsAt0_A (c : Dev nD) (t : Fin cfg0.N) (h0 : t.val = 0) :
    outsAt0 V c t.val t.isLt = (out0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t),
      sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = (out0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)).2,
      (outsAt0 V c (t.val - 1) (Nat.lt_of_le_of_lt (Nat.sub_le _ _) t.isLt)).2) := by
  obtain ⟨n, hn⟩ := t
  cases n with
  | zero => exact absurd rfl h0
  | succ n => exact rfl

/-- The invariant before position n: before the first point the scratch at anything; afterwards the scratch at what
    the point before left in it; beside it the other scoped buffers and the generator register. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ rest0 c) ∗ (∃ r, prngReg c r)) := by
  cases n with
  | zero => exact absurd rfl hz
  | succ n => rfl

/-- The proof data of the pipeline: the arrays as the region finds them; after the body at point t each input's buffer
    at its block and the output's at what the point stores; the invariant carrying the scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))
/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4800000 in
/-- The body at any point: the inputs' buffers hold their blocks; at the first point the invariant hands over the
    scratch at anything and takes it back at what the point stored; at a later point it hands it over at what the point
    before left and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h0 : t.val = 0
  · rw [outsAt0_A V c t h0]
    unfold out0_A sout0_A; (try dsimp only)
    rw [PhiS0_castSucc V c t, PhiS0_zero V c _ _ h0]
    iintro ⟨HP, Ho, ⟨%d0, H0⟩, ⟨%d1, H1⟩, ⟨%d2, H2⟩, ⟨%d3, H3⟩, ⟨%d4, H4⟩⟩
    have hsplit := PhiA0_out (F := F) c
    ihave HP' := hsplit $$ HP
    icases HP' with ⟨⟨HS, Hrest⟩, Hg⟩
    iapply ((kernelRun0_A c (grid0.coords t) _ _ _ _ _ _ _ _ _ _ _ _ ((hcond0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _)
  · rw [outsAt0_B V c t h0]
    unfold out0_B; (try dsimp only)
    rw [PhiS0_castSucc V c t, PhiS0_pos V c _ _ h0]
    iintro ⟨⟨⟨HS, Hrest⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the launch's form back: the scratch's contents are forgotten. -/
theorem hout0 (c : Dev nD) : (dat0 V c).Φ (Fin.last cfg0.N) ⊢ Pipeline.ΦA spec0 c := by
  have hN : cfg0.N = 25 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega)]
  refine .trans ?_ (PhiA0_in c)
  iintro ⟨⟨HS, Hrest⟩, Hg⟩
  isplitl [HS Hrest]
  · isplitl [HS]; · iexists _; iexact HS
    iexact Hrest
  iexact Hg

end Cert.KernelIdeal.Hand

end
-- ==== Proof.IdealBody1.lean ====
/-
  The body of pallas_call 1 run on whole staging buffers, in its two cases: at the grid's first point it first stores the
  small dense factor into the scratch buffer and then computes the block of rows from it; at every later point it
  computes the block of rows from the scratch as the first point left it. Each run ends with the inputs as they were
  and with the pieces its stores wrote into the output block and into the scratch.
-/
import proofs.«153151_g1580547973942_cont_week2b_924_2_alg».proof.Proof.Gen.KernelIdeal.Launch
import proofs.«153151_g1580547973942_cont_week2b_924_2_alg».proof.Proof.Gen.KernelIdeal.Skeleton
import proofs.«153151_g1580547973942_cont_week2b_924_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The body's branch condition: the grid coordinate is 0. -/
abbrev cond1 (i : grid1.Coords) : Prop :=
  (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- The first point: the scratch (at anything) receives the dense factor, the output block (at anything) its rows. -/
noncomputable def kernelRun1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i)
    (x1 : Vec F S400x10000 .f32) (x2 : Vec F S10000x128 .f32) (x3 : Vec F S128x64 .f32) (x4 : Vec F S1x64 .f32) :
    Σ' (L5 : List (View.Piece (Elt F) S400x64 .f32)), { LS : List (View.Piece (Elt F) S10000x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc1__layer2_kernel i arg1 harg1 arg2 harg2 arg3 harg3 arg4 harg4 arg5 harg5 arg6 harg6) K } := by
  refine ⟨?_, ?_, fun E K => ?run⟩
  case run =>
    simp only [cc1__layer2_kernel_eq_skeleton]; unfold cc1__layer2_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf1; obtain rfl := harg2.eq_unread hf2; obtain rfl := harg3.eq_unread hf3; obtain rfl := harg4.eq_unread hf4
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

set_option maxHeartbeats 1000000 in
/-- A later point: the scratch holds what the first point left and stays; the output block (at anything) receives its rows. -/
noncomputable def kernelRun1_B (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : ¬cond1 i)
    (x1 : Vec F S400x10000 .f32) (x2 : Vec F S10000x128 .f32) (x3 : Vec F S128x64 .f32) (x4 : Vec F S1x64 .f32) (xs : Vec F S10000x64 .f32) :
    { L5 : List (View.Piece (Elt F) S400x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4
            ∗ (∃ d, owns (c : Thread nD τ) arg5 fullShare d) ∗ owns (c : Thread nD τ) arg6 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ owns (c : Thread nD τ) arg6 fullShare xs) -∗ K ⟨⟩))
          ⊢ wp frame (wpE (defs₀ (F := F)) Variants.none c none) E (cc1__layer2_kernel i arg1 harg1 arg2 harg2 arg3 harg3 arg4 harg4 arg5 harg5 arg6 harg6) K } := by
  refine ⟨?_, fun E K => ?run⟩
  case run =>
    simp only [cc1__layer2_kernel_eq_skeleton]; unfold cc1__layer2_kernel_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf1; obtain rfl := harg2.eq_unread hf2; obtain rfl := harg3.eq_unread hf3; obtain rfl := harg4.eq_unread hf4; obtain rfl := harg6.eq_unread hf6
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; isplitr; · ipureintro; exact harg6.read_unread _
    iexact H6

end Cert.KernelIdeal.Hand

end
-- ==== Proof.IdealRegion1.lean ====
/-
  pallas_call 1 as a region entered with the TensorCore's buffers at given contents: each window's block at a
  grid point, what the body leaves in the output block and in the scratch point by point (the scratch keeps what the
  first point stored), the invariant carrying the scratch between points, and the body's obligation at every point.
-/
import proofs.«153151_g1580547973942_cont_week2b_924_2_alg».proof.Proof.IdealBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The staging memrefs at a point, the scratch, and the views through which contents are stated. -/
abbrev ms1_0 (t : Fin cfg1.N) : Memref sig .tc .vmem S400x10000 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S400x64 .f32 := win1_4.stage (cfg1.slots t 4)
abbrev hs1_4 (t : Fin cfg1.N) : (ms1_4 t).IsWhole := hstage1_4 ((cfg1.slots t 4).cast nbuf1_4)
abbrev scM1 : Memref sig .tc .vmem S10000x64 .f32 := Memref.whole cc1_scratch0
abbrev VO1 : View sig .tc .vmem S400x64 .f32 := (Memref.whole cc1_stg4_0 : Memref sig .tc .vmem S400x64 .f32).view
abbrev VS1 : View sig .tc .vmem S10000x64 .f32 := (scM1).view

/-- The scoped buffers of the other pallas_call, each at some contents: they ride through this region untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region's invariant before the first point is the scratch at anything beside the other scoped buffers and the
    generator register, -/
theorem PhiA1_out (c : Dev nD) :
    (Pipeline.ΦA spec1 c : sProp 𝕄) ⊢ iprop(((∃ d, owns (c : Thread nD τ) scM1 fullShare d) ∗ rest1 c) ∗ (∃ r, prngReg c r)) := by
  unfold Pipeline.ΦA rest1; rw [scopedRest1_eq]; simp only [scM1, owns_whole]
  iintro ⟨⟨R1, R2, R3, R4, R5, R6, R7, R8, HS⟩, Hg⟩
  isplitl [HS R1 R2 R3 R4 R5 R6 R7 R8]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg
/-- and conversely. -/
theorem PhiA1_in (c : Dev nD) :
    iprop(((∃ d, owns (c : Thread nD τ) scM1 fullShare d) ∗ rest1 c) ∗ (∃ r, prngReg c r)) ⊢ (Pipeline.ΦA spec1 c : sProp 𝕄) := by
  unfold Pipeline.ΦA rest1; rw [scopedRest1_eq]; simp only [scM1, owns_whole]
  iintro ⟨⟨HS, R1, R2, R3, R4, R5, R6, R7, R8⟩, Hg⟩
  isplitl [HS R1 R2 R3 R4 R5 R6 R7 R8]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

/-! What the first point's stores leave: the pieces cover the output block and the scratch. -/
theorem cover1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) (y : S400x64.Idx) :
    ∃ pc ∈ (kernelRun1_A c i arg1 harg1 arg2 harg2 arg3 harg3 arg4 harg4 arg5 harg5 arg6 harg6 hc x1 x2 x3 x4).1, y ∈ pc.1.set :=
  View.cover_of_tiledL (kernelRun1_A c i arg1 harg1 arg2 harg2 arg3 harg3 arg4 harg4 arg5 harg5 arg6 harg6 hc x1 x2 x3 x4).1 S400x64.size (by sl_kernel_rfl) y
theorem scover1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) (y : S10000x64.Idx) :
    ∃ pc ∈ (kernelRun1_A c i arg1 harg1 arg2 harg2 arg3 harg3 arg4 harg4 arg5 harg5 arg6 harg6 hc x1 x2 x3 x4).2.1, y ∈ pc.1.set :=
  View.cover_of_tiledL (kernelRun1_A c i arg1 harg1 arg2 harg2 arg3 harg3 arg4 harg4 arg5 harg5 arg6 harg6 hc x1 x2 x3 x4).2.1 S10000x64.size (by sl_kernel_rfl) y
theorem cover1_B (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : ¬cond1 i) (x1 : Vec F S400x10000 .f32) (x2 : Vec F S10000x128 .f32) (x3 : Vec F S128x64 .f32) (x4 : Vec F S1x64 .f32) (xs : Vec F S10000x64 .f32) (y : S400x64.Idx) :
    ∃ pc ∈ (kernelRun1_B c i arg1 harg1 arg2 harg2 arg3 harg3 arg4 harg4 arg5 harg5 arg6 harg6 hc x1 x2 x3 x4 xs).1, y ∈ pc.1.set :=
  View.cover_of_tiledL (kernelRun1_B c i arg1 harg1 arg2 harg2 arg3 harg3 arg4 harg4 arg5 harg5 arg6 harg6 hc x1 x2 x3 x4 xs).1 S400x64.size (by sl_kernel_rfl) y

/-- The output block after the first point, -/
def out1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) : Vec F S400x64 .f32 :=
  VO1.read (Elt F) (VO1.writes (Elt F) VO1.junk (kernelRun1_A c i arg1 harg1 arg2 harg2 arg3 harg3 arg4 harg4 arg5 harg5 arg6 harg6 hc x1 x2 x3 x4).1)
/-- the scratch after it, -/
def sout1_A (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) : Vec F S10000x64 .f32 :=
  VS1.read (Elt F) (VS1.writes (Elt F) VS1.junk (kernelRun1_A c i arg1 harg1 arg2 harg2 arg3 harg3 arg4 harg4 arg5 harg5 arg6 harg6 hc x1 x2 x3 x4).2.1)
/-- and the output block after a later point, computed from the scratch as it stands. -/
def out1_B (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : ¬cond1 i) (x1 : Vec F S400x10000 .f32) (x2 : Vec F S10000x128 .f32) (x3 : Vec F S128x64 .f32) (x4 : Vec F S1x64 .f32) (xs : Vec F S10000x64 .f32) : Vec F S400x64 .f32 :=
  VO1.read (Elt F) (VO1.writes (Elt F) VO1.junk (kernelRun1_B c i arg1 harg1 arg2 harg2 arg3 harg3 arg4 harg4 arg5 harg5 arg6 harg6 hc x1 x2 x3 x4 xs).1)

/-- What the output block and the scratch hold after the body at position n: the first point stores both; every
    later point stores the output block from the scratch the point before left, and leaves the scratch as it is. -/
def outsAt1 (c : Dev nD) : (n : ℕ) → n < cfg1.N → Vec F S400x64 .f32 × Vec F S10000x64 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1 ⟨0, hn⟩).mpr rfl) (iblk1 V c 0 ⟨0, hn⟩) (iblk1 V c 1 ⟨0, hn⟩) (iblk1 V c 2 ⟨0, hn⟩) (iblk1 V c 3 ⟨0, hn⟩))
  | n + 1, hn => (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => absurd ((hcond1 ⟨n + 1, hn⟩).mp h) (Nat.succ_ne_zero n)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
      (outsAt1 c n (Nat.lt_of_succ_lt hn)).2)

theorem outsAt1_A (c : Dev nD) (t : Fin cfg1.N) (h0 : t.val = 0) :
    outsAt1 V c t.val t.isLt = (out1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t),
      sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = (out1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)).2,
      (outsAt1 V c (t.val - 1) (Nat.lt_of_le_of_lt (Nat.sub_le _ _) t.isLt)).2) := by
  obtain ⟨n, hn⟩ := t
  cases n with
  | zero => exact absurd rfl h0
  | succ n => exact rfl

/-- The invariant before position n: before the first point the scratch at anything; afterwards the scratch at what
    the point before left in it; beside it the other scoped buffers and the generator register. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ rest1 c) ∗ (∃ r, prngReg c r)) := by
  cases n with
  | zero => exact absurd rfl hz
  | succ n => rfl

/-- The proof data of the pipeline: the arrays as the region finds them; after the body at point t each input's buffer
    at its block and the output's at what the point stores; the invariant carrying the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4800000 in
/-- The body at any point: the inputs' buffers hold their blocks; at the first point the invariant hands over the
    scratch at anything and takes it back at what the point stored; at a later point it hands it over at what the point
    before left and takes it back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  by_cases h0 : t.val = 0
  · rw [outsAt1_A V c t h0]
    unfold out1_A sout1_A; (try dsimp only)
    rw [PhiS1_castSucc V c t, PhiS1_zero V c _ _ h0]
    iintro ⟨HP, Ho, ⟨%d0, H0⟩, ⟨%d1, H1⟩, ⟨%d2, H2⟩, ⟨%d3, H3⟩, ⟨%d4, H4⟩⟩
    have hsplit := PhiA1_out (F := F) c
    ihave HP' := hsplit $$ HP
    icases HP' with ⟨⟨HS, Hrest⟩, Hg⟩
    iapply ((kernelRun1_A c (grid1.coords t) _ _ _ _ _ _ _ _ _ _ _ _ ((hcond1 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A c _ _ _ _ _ _ _ _ _ _ _ _ _ _ _ _ _ _)
  · rw [outsAt1_B V c t h0]
    unfold out1_B; (try dsimp only)
    rw [PhiS1_castSucc V c t, PhiS1_pos V c _ _ h0]
    iintro ⟨⟨⟨HS, Hrest⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's form back: the scratch's contents are forgotten. -/
theorem hout1 (c : Dev nD) : (dat1 V c).Φ (Fin.last cfg1.N) ⊢ Pipeline.ΦA spec1 c := by
  have hN : cfg1.N = 25 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega)]
  refine .trans ?_ (PhiA1_in c)
  iintro ⟨⟨HS, Hrest⟩, Hg⟩
  isplitl [HS Hrest]
  · isplitl [HS]; · iexists _; iexact HS
    iexact Hrest
  iexact Hg

end Cert.KernelIdeal.Hand

end
-- ==== Proof.IdealFrame.lean ====
/-
  The whole program as four segments — the reshape of the first bias, pallas_call 0, the reshape of the second bias,
  pallas_call 1 — with the contents of every unscoped buffer named at each boundary: a host stretch applies its
  operations; a region leaves its arrays at what its write-backs leave and every other buffer as entered. Every weakly
  fair execution terminates with the buffers at the last boundary's contents; the arguments walk back through the
  boundaries to the launch memory, and the result buffer holds what pallas_call 1's write-backs leave.
-/
import proofs.«153151_g1580547973942_cont_week2b_924_2_alg».proof.Proof.IdealRegion0
import proofs.«153151_g1580547973942_cont_week2b_924_2_alg».proof.Proof.IdealRegion1
import proofs.«153151_g1580547973942_cont_week2b_924_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the first reshape (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second reshape (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (U1 m) c).arrAt_in 1 rfl _).trans (A_eq0 (U1 m) c 1))
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat1 (U3 m) c).arrAt_in 0 rfl _).trans (A_eq1 (U3 m) c 0))
    _ = W2 m c (Proc.devRef .tc main_arg1) := StableHlo.after_of_writes_sub hostOps1 _ hostOps1_writes (by decide)
    _ = W1 m c (Proc.devRef .tc main_arg1) := (W2_arr m c 0).trans (((dat0 (U1 m) c).arrAt_in 0 rfl _).trans (A_eq0 (U1 m) c 0))
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dat0 (U1 m) c).arrAt_in 2 rfl _).trans (A_eq0 (U1 m) c 2))
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := (W4_arr m c 2).trans (((dat1 (U3 m) c).arrAt_in 2 rfl _).trans (A_eq1 (U3 m) c 2))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- The result buffer ends at what pallas_call 1's write-backs leave in it. -/
theorem W4_main_v0 (c : Dev nD) : W4 m c (Proc.devRef .tc main_v0) = (dat1 (U3 m) c).arrAt 4 cfg1.N := W4_arr m c 4

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the write-backs leave;
    the generator register and the scoped buffers go into the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from hin0 (U1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the write-backs leave;
    the generator register and the scoped buffers go into the invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (U3 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev hsegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (hsegs m) := (main_chain c).trans (by chain_rfl)

set_option backward.isDefEq.respectTransparency.types false in
/-- From any memory with zero counters every weakly fair execution of the program terminates, nothing faulting, with
    every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run read at the result and at the six arguments. -/
theorem run_main : θ_run defs (onTc (τ := τ) (main (F := F))) ⟨m, fun _ => 0, ρ⟩ (fun r => ∀ c : Dev nD,
      r.2.mem ((c.tc : Thread nD τ).loc main_v0) = (dat1 (U3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v0 (by decide))).trans (W4_main_v0 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.IdealPieces.lean ====
/-
  What each body run's stores leave, as the payloads of what it loaded. Every store of the two bodies writes a whole
  buffer through zero offsets, and every load reads a whole buffer through zero offsets, so the contents a run leaves in
  the output block and in the scratch are the stored payloads applied to the buffers' contents: at the first grid point
  the scratch receives the product of the features and the weights and the output block is computed from the scratch
  read back after that store; at a later point the output block is computed from the scratch as it stands.
-/
import proofs.«153151_g1580547973942_cont_week2b_924_2_alg».proof.Proof.IdealRegion0
import proofs.«153151_g1580547973942_cont_week2b_924_2_alg».proof.Proof.IdealRegion1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The zero offsets of a whole rectangle. -/
theorem pieces_hz : (![0, 0] : Fin 2 → Nat) = fun _ => 0 := funext fun a => by fin_cases a <;> rfl

/-- What the first point of region 0 leaves in the scratch: the product of the loaded features and weights. -/
theorem sout0_A_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) :
    sout0_A c i arg1 harg1 arg2 harg2 arg3 harg3 arg4 harg4 arg5 harg5 arg6 harg6 hc x1 x2 x3 x4 = k0_pay1 x2 x3 := by
  unfold sout0_A
  rw [View.read_writes_eq_canon _ _ _ (scover0_A c i arg1 harg1 arg2 harg2 arg3 harg3 arg4 harg4 arg5 harg5 arg6 harg6 hc x1 x2 x3 x4)]
  unfold kernelRun0_A
  dsimp only
  sl_unfold_words
  rw [View.canon_unit_zero pieces_hz]
  simp only [View.readAt_eq_ld, harg2.read_unread, harg3.read_unread,
    View.ld_unit_zero (S := S10000x128) pieces_hz, View.ld_unit_zero (S := S128x128) pieces_hz]

/-- What the first point of region 0 leaves in the output block: the rows computed from the scratch it has just stored. -/
theorem out0_A_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : cond0 i) (x1 : Vec F S400x10000 .f32) (x2 : Vec F S10000x128 .f32) (x3 : Vec F S128x128 .f32) (x4 : Vec F S1x128 .f32) :
    out0_A c i arg1 harg1 arg2 harg2 arg3 harg3 arg4 harg4 arg5 harg5 arg6 harg6 hc x1 x2 x3 x4 = k0_pay2 x1 (k0_pay1 x2 x3) x4 := by
  unfold out0_A
  rw [View.read_writes_eq_canon _ _ _ (cover0_A c i arg1 harg1 arg2 harg2 arg3 harg3 arg4 harg4 arg5 harg5 arg6 harg6 hc x1 x2 x3 x4)]
  unfold kernelRun0_A
  dsimp only
  sl_unfold_words
  rw [View.canon_unit_zero pieces_hz, View.readCov_unit_zero (S := S10000x128) _ pieces_hz]
  simp only [View.readAt_eq_ld, harg1.read_unread, harg2.read_unread, harg3.read_unread, harg4.read_unread,
    View.ld_unit_zero (S := S400x10000) pieces_hz, View.ld_unit_zero (S := S10000x128) pieces_hz,
    View.ld_unit_zero (S := S128x128) pieces_hz, View.ld_unit_zero (S := S1x128) pieces_hz]

/-- What a later point of region 0 leaves in the output block: the rows computed from the scratch as it stands. -/
theorem out0_B_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .f32) (harg6 : arg6.IsWhole) (hc : ¬cond0 i) (x1 : Vec F S400x10000 .f32) (x2 : Vec F S10000x128 .f32) (x3 : Vec F S128x128 .f32) (x4 : Vec F S1x128 .f32) (xs : Vec F S10000x128 .f32) :
    out0_B c i arg1 harg1 arg2 harg2 arg3 harg3 arg4 harg4 arg5 harg5 arg6 harg6 hc x1 x2 x3 x4 xs = k0_pay2 x1 xs x4 := by
  unfold out0_B
  rw [View.read_writes_eq_canon _ _ _ (cover0_B c i arg1 harg1 arg2 harg2 arg3 harg3 arg4 harg4 arg5 harg5 arg6 harg6 hc x1 x2 x3 x4 xs)]
  unfold kernelRun0_B
  dsimp only
  rw [View.canon_unit_zero pieces_hz]
  simp only [View.readAt_eq_ld, harg1.read_unread, harg6.read_unread, harg4.read_unread,
    View.ld_unit_zero (S := S400x10000) pieces_hz, View.ld_unit_zero (S := S10000x128) pieces_hz, View.ld_unit_zero (S := S1x128) pieces_hz]

/-- What the first point of region 1 leaves in the scratch: the product of the loaded features and weights. -/
theorem sout1_A_eq (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) :
    sout1_A c i arg1 harg1 arg2 harg2 arg3 harg3 arg4 harg4 arg5 harg5 arg6 harg6 hc x1 x2 x3 x4 = k1_pay1 x2 x3 := by
  unfold sout1_A
  rw [View.read_writes_eq_canon _ _ _ (scover1_A c i arg1 harg1 arg2 harg2 arg3 harg3 arg4 harg4 arg5 harg5 arg6 harg6 hc x1 x2 x3 x4)]
  unfold kernelRun1_A
  dsimp only
  sl_unfold_words
  rw [View.canon_unit_zero pieces_hz]
  simp only [View.readAt_eq_ld, harg2.read_unread, harg3.read_unread,
    View.ld_unit_zero (S := S10000x128) pieces_hz, View.ld_unit_zero (S := S128x64) pieces_hz]

/-- What the first point of region 1 leaves in the output block: the rows computed from the scratch it has just stored. -/
theorem out1_A_eq (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : cond1 i) (x1 : Vec F S400x10000 .f32) (x2 : Vec F S10000x128 .f32) (x3 : Vec F S128x64 .f32) (x4 : Vec F S1x64 .f32) :
    out1_A c i arg1 harg1 arg2 harg2 arg3 harg3 arg4 harg4 arg5 harg5 arg6 harg6 hc x1 x2 x3 x4 = k1_pay2 x1 (k1_pay1 x2 x3) x4 := by
  unfold out1_A
  rw [View.read_writes_eq_canon _ _ _ (cover1_A c i arg1 harg1 arg2 harg2 arg3 harg3 arg4 harg4 arg5 harg5 arg6 harg6 hc x1 x2 x3 x4)]
  unfold kernelRun1_A
  dsimp only
  sl_unfold_words
  rw [View.canon_unit_zero pieces_hz, View.readCov_unit_zero (S := S10000x64) _ pieces_hz]
  simp only [View.readAt_eq_ld, harg1.read_unread, harg2.read_unread, harg3.read_unread, harg4.read_unread,
    View.ld_unit_zero (S := S400x10000) pieces_hz, View.ld_unit_zero (S := S10000x128) pieces_hz,
    View.ld_unit_zero (S := S128x64) pieces_hz, View.ld_unit_zero (S := S1x64) pieces_hz]

/-- What a later point of region 1 leaves in the output block: the rows computed from the scratch as it stands. -/
theorem out1_B_eq (c : Dev nD) (i : grid1.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S400x64 .f32) (harg5 : arg5.IsWhole) (arg6 : Memref sig .tc .vmem S10000x64 .f32) (harg6 : arg6.IsWhole) (hc : ¬cond1 i) (x1 : Vec F S400x10000 .f32) (x2 : Vec F S10000x128 .f32) (x3 : Vec F S128x64 .f32) (x4 : Vec F S1x64 .f32) (xs : Vec F S10000x64 .f32) :
    out1_B c i arg1 harg1 arg2 harg2 arg3 harg3 arg4 harg4 arg5 harg5 arg6 harg6 hc x1 x2 x3 x4 xs = k1_pay2 x1 xs x4 := by
  unfold out1_B
  rw [View.read_writes_eq_canon _ _ _ (cover1_B c i arg1 harg1 arg2 harg2 arg3 harg3 arg4 harg4 arg5 harg5 arg6 harg6 hc x1 x2 x3 x4 xs)]
  unfold kernelRun1_B
  dsimp only
  rw [View.canon_unit_zero pieces_hz]
  simp only [View.readAt_eq_ld, harg1.read_unread, harg6.read_unread, harg4.read_unread,
    View.ld_unit_zero (S := S400x10000) pieces_hz, View.ld_unit_zero (S := S10000x64) pieces_hz, View.ld_unit_zero (S := S1x64) pieces_hz]

end Cert.KernelIdeal.Hand

end
-- ==== Proof.Spec.lean ====
/-
  The two-layer graph convolution as one function of its six arrays, over the extended reals.

  For node features x [N, F], a dense adjacency adj [N, N], weights W1 [F, H], W2 [H, C] and biases b1 [H], b2 [C]:
      h1  = max (adj · (x · W1) + b1, 0)                      (rectified first layer, bias added to every row)
      z   = adj · (h1 · W2) + b2                               (second layer's logits)
      out = (z − m) − log (Σ_l exp (z(·, l) − m)),  m = the maximum of the row of z       (log-softmax along each row)
  Every product is the textbook sum over the contracted index; the maximum of a row is the fold of max from −∞ over
  its entries. The building blocks are generic in their extents, and each reads only one row of its left operand,
  which is what lets a block of rows of the result be computed from the same block of rows of the adjacency.
-/
import Idealize.ShloMosaic.Lib.ValueIdx
import Idealize.ShloMosaic.PureOps.Ideal
import Idealize.ShloMosaic.PureOps.Ideal.Laws

noncomputable section

open scoped BigOperators

namespace Cert.Spec

open Idealize.ShloMosaic Idealize.ShloMosaic.ValueIdx

variable {A A' K B : Nat}

/-- The matrix product at (r, c): the sum over k of x (r, k) · w (k, c). -/
def prod (x : (⟨2, ![A, K]⟩ : Shape).Idx → EReal) (w : (⟨2, ![K, B]⟩ : Shape).Idx → EReal) :
    (⟨2, ![A, B]⟩ : Shape).Idx → EReal :=
  fun j => ∑ k : Fin K, x (ix2 (j 0) k) * w (ix2 k (j 1))

/-- A vector of length B as the one row of a [1, B] array. -/
def rowOf (b : (⟨1, ![B]⟩ : Shape).Idx → EReal) : (⟨2, ![1, B]⟩ : Shape).Idx → EReal :=
  fun i => b (ix1 (i 1))

/-- The affine layer at (r, c): the product a · s plus the bias row's entry c. -/
def affine (a : (⟨2, ![A, K]⟩ : Shape).Idx → EReal) (s : (⟨2, ![K, B]⟩ : Shape).Idx → EReal)
    (b : (⟨2, ![1, B]⟩ : Shape).Idx → EReal) : (⟨2, ![A, B]⟩ : Shape).Idx → EReal :=
  fun j => prod a s j + b (ix2 0 (j 1))

/-- The rectified affine layer: max (a · s + b, 0). -/
def reluLayer (a : (⟨2, ![A, K]⟩ : Shape).Idx → EReal) (s : (⟨2, ![K, B]⟩ : Shape).Idx → EReal)
    (b : (⟨2, ![1, B]⟩ : Shape).Idx → EReal) : (⟨2, ![A, B]⟩ : Shape).Idx → EReal :=
  fun j => max (affine a s b j) 0

/-- The maximum of row p of z: the fold of max from −∞ over the row's entries. -/
def rowMax (z : (⟨2, ![A, B]⟩ : Shape).Idx → EReal) (p : Fin A) : EReal :=
  (Finset.univ : Finset (Fin B)).fold max (Ideal.ofBits .f32 0xFF800000#32) (fun l => z (ix2 p l))

/-- The log-softmax along each row: (z − m) − log Σ_l exp (z (r, l) − m), m the row's maximum. -/
def logSoftmax (z : (⟨2, ![A, B]⟩ : Shape).Idx → EReal) : (⟨2, ![A, B]⟩ : Shape).Idx → EReal :=
  fun j => (z j - rowMax z (j 0)) - Ideal.log (∑ l : Fin B, Ideal.exp (z (ix2 (j 0) l) - rowMax z (j 0)))

/-- The product at an index reads one row of the left operand: two products over left operands of different heights
    agree at two indices where those rows agree and the columns are the same. -/
theorem prod_congr (x : (⟨2, ![A, K]⟩ : Shape).Idx → EReal) (x' : (⟨2, ![A', K]⟩ : Shape).Idx → EReal)
    (w : (⟨2, ![K, B]⟩ : Shape).Idx → EReal) (j : (⟨2, ![A, B]⟩ : Shape).Idx) (i : (⟨2, ![A', B]⟩ : Shape).Idx)
    (hx : ∀ k, x (ix2 (j 0) k) = x' (ix2 (i 0) k)) (hc : j 1 = i 1) : prod x w j = prod x' w i := by
  unfold prod
  rw [hc]
  exact Finset.sum_congr rfl fun k _ => by rw [hx k]

theorem affine_congr (a : (⟨2, ![A, K]⟩ : Shape).Idx → EReal) (a' : (⟨2, ![A', K]⟩ : Shape).Idx → EReal)
    (s : (⟨2, ![K, B]⟩ : Shape).Idx → EReal) (b : (⟨2, ![1, B]⟩ : Shape).Idx → EReal)
    (j : (⟨2, ![A, B]⟩ : Shape).Idx) (i : (⟨2, ![A', B]⟩ : Shape).Idx)
    (hx : ∀ k, a (ix2 (j 0) k) = a' (ix2 (i 0) k)) (hc : j 1 = i 1) : affine a s b j = affine a' s b i := by
  unfold affine
  rw [prod_congr a a' s j i hx hc, hc]

theorem reluLayer_congr (a : (⟨2, ![A, K]⟩ : Shape).Idx → EReal) (a' : (⟨2, ![A', K]⟩ : Shape).Idx → EReal)
    (s : (⟨2, ![K, B]⟩ : Shape).Idx → EReal) (b : (⟨2, ![1, B]⟩ : Shape).Idx → EReal)
    (j : (⟨2, ![A, B]⟩ : Shape).Idx) (i : (⟨2, ![A', B]⟩ : Shape).Idx)
    (hx : ∀ k, a (ix2 (j 0) k) = a' (ix2 (i 0) k)) (hc : j 1 = i 1) : reluLayer a s b j = reluLayer a' s b i := by
  unfold reluLayer
  rw [affine_congr a a' s b j i hx hc]

/-- The log-softmax at an index reads one row of the logits: it agrees for two arrays of different heights at two
    indices where those rows agree and the columns are the same. -/
theorem logSoftmax_congr (z : (⟨2, ![A, B]⟩ : Shape).Idx → EReal) (z' : (⟨2, ![A', B]⟩ : Shape).Idx → EReal)
    (j : (⟨2, ![A, B]⟩ : Shape).Idx) (i : (⟨2, ![A', B]⟩ : Shape).Idx)
    (hz : ∀ l, z (ix2 (j 0) l) = z' (ix2 (i 0) l)) (hc : j 1 = i 1) : logSoftmax z j = logSoftmax z' i := by
  have hm : rowMax z (j 0) = rowMax z' (i 0) := by
    unfold rowMax
    exact congrArg (fun g => (Finset.univ : Finset (Fin B)).fold max _ g) (funext hz)
  have hj : z j = z' i := by
    have e1 : j = ix2 (j 0) (i 1) := funext fun a => by
      match a with
      | ⟨0, _⟩ => rfl
      | ⟨1, _⟩ => exact hc
    exact (congrArg z e1).trans ((hz (i 1)).trans (congrArg z' (eq_ix2 i)).symm)
  unfold logSoftmax
  rw [hm, hj]
  exact congrArg (fun s => (z' i - rowMax z' (i 0)) - Ideal.log s) (Finset.sum_congr rfl fun l _ => by rw [hz l])

/-- The first layer's result h1 = max (adj · (x · W1) + b1, 0) as one function of the arrays. -/
def hidden (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal) :
    (⟨2, ![10000, 128]⟩ : Shape).Idx → EReal :=
  reluLayer adj (prod x W1) (rowOf b1)

/-- The whole result: log-softmax of adj · (h1 · W2) + b2 along each row. -/
def G (x : (⟨2, ![10000, 128]⟩ : Shape).Idx → EReal) (adj : (⟨2, ![10000, 10000]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![10000, 64]⟩ : Shape).Idx → EReal :=
  logSoftmax (affine adj (prod (hidden x adj W1 b1) W2) (rowOf b2))

end Cert.Spec

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibRowReduce.lean ====
/-
  Reductions along the rows of a matrix kept as a column, and the two spreads of a column and of a row over a matrix, read
  at an index — generic in the two extents.

  For an [A, B] array x:
  * a lane reduction by maximum (minimum) from the word w, re-laid as an [A, 1] column, holds at (p, u) the fold of max
    (min) from the value of w over the B entries x(p, ·) (`rowMax`, `rowMin`); a lane reduction by addition from the
    zero word holds their sum (`rowSum`);
  * a [1, B] row spread over the A rows of an [A, B] array holds at (p, l) the row's entry l (`broadcastTo_1b_ab_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

open scoped BigOperators

namespace Cert.Lib.RowReduce

open Idealize.ShloMosaic Idealize.ShloMosaic.ValueIdx

variable {A B : Nat}

/-- The index of row p with l inserted on the second axis is (p, l). -/
theorem lift_row (h : (⟨2, ![A, B]⟩ : Shape).Reduces [1] ⟨1, ![A]⟩) (p : Fin A) (l : Fin B) :
    h.lift (ix1 p) l = ix2 p l :=
  funext fun ax => Fin.ext (by match ax with | ⟨0, _⟩ => rfl | ⟨1, _⟩ => rfl)

/-- An [A] vector re-laid as an [A, 1] column reads at (p, u) the vector's entry p. -/
theorem col_apply {α : Type} (x : (⟨1, ![A]⟩ : Shape).Idx → α) (hc : (⟨1, ![A]⟩ : Shape).ShapeCasts ⟨2, ![A, 1]⟩)
    (p : Fin A) (u : Fin 1) : shapeCast ⟨2, ![A, 1]⟩ x hc (ix2 p u) = x (ix1 p) :=
  shapeCast_apply x hc _ _ (by
    have hu : u.val = 0 := by omega
    rw [Shape.rowMajor_val_two, Shape.rowMajor_val_one]
    show p.val = p.val * 1 + u.val
    omega)

/-- The maximum along each row, kept as a column. -/
theorem rowMax (x : FVec Ideal ⟨2, ![A, B]⟩ .f32) (w : BitVec 32)
    (h : (⟨2, ![A, B]⟩ : Shape).Reduces [1] ⟨1, ![A]⟩) (hφ : FKind.Formats .f32)
    (hacc : w = FKind.maximumf.neutral .f32 hφ) (hc : (⟨1, ![A]⟩ : Shape).ShapeCasts ⟨2, ![A, 1]⟩) (p : Fin A) (u : Fin 1) :
    shapeCast ⟨2, ![A, 1]⟩ (multiReduction .maximumf [1] ⟨1, ![A]⟩ x w h hφ hacc) hc (ix2 p u)
      = (Finset.univ : Finset (Fin B)).fold max (Ideal.ofBits .f32 w) (fun l => x (ix2 p l)) := by
  rw [col_apply]
  refine (Ideal.multiReduction_maximumf_single x w h hφ hacc (ix1 p)).trans ?_
  exact congrArg (fun g => (Finset.univ : Finset (Fin B)).fold max (Ideal.ofBits .f32 w) g) (funext fun l => congrArg x (lift_row h p l))

/-- The minimum along each row, kept as a column. -/
theorem rowMin (x : FVec Ideal ⟨2, ![A, B]⟩ .f32) (w : BitVec 32)
    (h : (⟨2, ![A, B]⟩ : Shape).Reduces [1] ⟨1, ![A]⟩) (hφ : FKind.Formats .f32)
    (hacc : w = FKind.minimumf.neutral .f32 hφ) (hc : (⟨1, ![A]⟩ : Shape).ShapeCasts ⟨2, ![A, 1]⟩) (p : Fin A) (u : Fin 1) :
    shapeCast ⟨2, ![A, 1]⟩ (multiReduction .minimumf [1] ⟨1, ![A]⟩ x w h hφ hacc) hc (ix2 p u)
      = (Finset.univ : Finset (Fin B)).fold min (Ideal.ofBits .f32 w) (fun l => x (ix2 p l)) := by
  rw [col_apply]
  refine ((multiReduction_minimumf_eq_fold x w h hφ hacc (ix1 p)).trans (h.fold_filter_drop_single _ _ x (ix1 p))).trans ?_
  exact congrArg (fun g => (Finset.univ : Finset (Fin B)).fold min (Ideal.ofBits .f32 w) g) (funext fun l => congrArg x (lift_row h p l))

/-- The sum along each row, kept as a column. -/
theorem rowSum (x : FVec Ideal ⟨2, ![A, B]⟩ .f32) (w : BitVec 32)
    (h : (⟨2, ![A, B]⟩ : Shape).Reduces [1] ⟨1, ![A]⟩) (hφ : FKind.Formats .f32)
    (hacc : w = FKind.add.neutral .f32 hφ) (hc : (⟨1, ![A]⟩ : Shape).ShapeCasts ⟨2, ![A, 1]⟩) (p : Fin A) (u : Fin 1) :
    shapeCast ⟨2, ![A, 1]⟩ (multiReduction .add [1] ⟨1, ![A]⟩ x w h hφ hacc) hc (ix2 p u) = ∑ l : Fin B, x (ix2 p l) := by
  rw [col_apply]
  refine (Ideal.multiReduction_add_single x w h hφ hacc (ix1 p)).trans ?_
  exact Finset.sum_congr rfl fun l _ => congrArg x (lift_row h p l)

variable {α : Type}

/-- A [1, B] row spread over [A, B] reads at (p, l) the row's entry l. -/
theorem broadcastTo_1b_ab_apply (v : (⟨2, ![1, B]⟩ : Shape).Idx → α) (h : (⟨2, ![1, B]⟩ : Shape).Broadcasts ⟨2, ![A, B]⟩)
    (p : Fin A) (l : Fin B) : broadcastTo ⟨2, ![A, B]⟩ v h (ix2 p l) = v (ix2 (0 : Fin 1) l) := by
  refine broadcastTo_apply v h (ix2 p l) (ix2 (0 : Fin 1) l) fun ax => ?_
  match ax with
  | ⟨0, _⟩ => rfl
  | ⟨1, _⟩ =>
    show l.val = if B = 1 then 0 else l.val
    split
    · have := l.isLt; omega
    · rfl

/-- An [A, 1] column spread over [A, B] reads at (p, l) the column's entry p. -/
theorem broadcastTo_a1_ab_apply (v : (⟨2, ![A, 1]⟩ : Shape).Idx → α) (h : (⟨2, ![A, 1]⟩ : Shape).Broadcasts ⟨2, ![A, B]⟩)
    (p : Fin A) (l : Fin B) : broadcastTo ⟨2, ![A, B]⟩ v h (ix2 p l) = v (ix2 p (0 : Fin 1)) := by
  refine broadcastTo_apply v h (ix2 p l) (ix2 p (0 : Fin 1)) fun ax => ?_
  match ax with
  | ⟨0, _⟩ =>
    show p.val = if A = 1 then 0 else p.val
    split
    · have := p.isLt; omega
    · rfl
  | ⟨1, _⟩ => rfl

end Cert.Lib.RowReduce

end
-- ==== Proof.KernelPay.lean ====
/-
  The arithmetic of the two kernels' bodies, at the extended reals, as the specification's row functions.

  Each kernel body computes, from the arrays it reads, two values it stores:
  * the product of the features with the layer's weights, a matmul into the zero accumulator:
    at (r, c) the sum over k of x (r, k) · w (k, c);
  * a block of rows of the layer's result: the product of a block of rows of the adjacency with that product, plus
    the bias row spread over the rows, then for the first layer the maximum with 0, and for the second layer the
    log-softmax along each row: with m the row's maximum (a lane reduction by maximum from −∞, re-laid as a column and
    spread over the row), (z − m) − log (Σ_l exp (z (r, l) − m)), the sum a lane reduction by addition from 0.
-/
import proofs.«153151_g1580547973942_cont_week2b_924_2_alg».proof.Proof.Gen.KernelIdeal.Skeleton
import proofs.«153151_g1580547973942_cont_week2b_924_2_alg».proof.Proof.Spec
import proofs.«153151_g1580547973942_cont_week2b_924_2_alg».proof.Proof.LibPlainDot
import proofs.«153151_g1580547973942_cont_week2b_924_2_alg».proof.Proof.LibRowReduce
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The first kernel's product: the features times the first layer's weights. -/
theorem pay0_1 (x : Vec Ideal S10000x128 .f32) (w : Vec Ideal S128x128 .f32) :
    k0_pay1 (F := Ideal) x w = Cert.Spec.prod x w := by
  funext j
  unfold k0_pay1
  rw [shapeCast_self,
    Cert.Lib.PlainDot.eq_plain dot_S10000x128_S128x128_S10000x128_1_0_0_1_n_n rfl rfl rfl rfl rfl rfl]
  exact Cert.Lib.PlainDot.matmul_zero_plain_apply none x w j

/-- The second kernel's product: the hidden features times the second layer's weights. -/
theorem pay1_1 (h : Vec Ideal S10000x128 .f32) (w : Vec Ideal S128x64 .f32) :
    k1_pay1 (F := Ideal) h w = Cert.Spec.prod h w := by
  funext j
  unfold k1_pay1
  rw [shapeCast_self, shapeCast_self,
    Cert.Lib.PlainDot.eq_plain dot_S10000x128_S128x64_S10000x64_1_0_0_1_n_n rfl rfl rfl rfl rfl rfl]
  exact Cert.Lib.PlainDot.matmul_zero_plain_apply none h w j

/-- The first kernel's block of rows: max (a · s + b, 0). -/
theorem pay0_2 (a : Vec Ideal S400x10000 .f32) (s : Vec Ideal S10000x128 .f32) (b : Vec Ideal S1x128 .f32) :
    k0_pay2 (F := Ideal) a s b = Cert.Spec.reluLayer a s b := by
  funext j
  obtain ⟨p, q, rfl⟩ : ∃ (p : Fin 400) (q : Fin 128), j = ix2 p q := ⟨j 0, j 1, eq_ix2 j⟩
  unfold k0_pay2
  rw [shapeCast_self,
    Cert.Lib.PlainDot.eq_plain dot_S400x10000_S10000x128_S400x128_1_0_0_1_n_n rfl rfl rfl rfl rfl rfl]
  rw [maximumf_apply, addf_apply, broadcast_apply, Cert.Lib.PlainDot.matmul_zero_plain_apply,
    Cert.Lib.RowReduce.broadcastTo_1b_ab_apply]
  unfold Cert.Spec.reluLayer Cert.Spec.affine Cert.Spec.prod
  exact congrArg (max _) Ideal.ofBits_zero_f32

/-- The second kernel's logits: the product of the adjacency rows with the features' product, plus the bias row spread
    over the rows, is the affine layer. -/
theorem logits (a : Vec Ideal S400x10000 .f32) (s : Vec Ideal S10000x64 .f32) (b : Vec Ideal S1x64 .f32) :
    addf (F := Ideal) (matmul (φ₁ := .f32) (φ₂ := .f32) dot_S400x10000_S10000x64_S400x64_1_0_0_1_n_n none a s (constant S400x64 .f32 0x00000000#32))
        (broadcastTo S400x64 (shapeCast S1x64 b shapeCasts_S1x64_S1x64) broadcasts_S1x64_S400x64)
      = Cert.Spec.affine a s b := by
  funext j
  obtain ⟨p, q, rfl⟩ : ∃ (p : Fin 400) (q : Fin 64), j = ix2 p q := ⟨j 0, j 1, eq_ix2 j⟩
  rw [shapeCast_self,
    Cert.Lib.PlainDot.eq_plain dot_S400x10000_S10000x64_S400x64_1_0_0_1_n_n rfl rfl rfl rfl rfl rfl]
  rw [addf_apply, Cert.Lib.PlainDot.matmul_zero_plain_apply, Cert.Lib.RowReduce.broadcastTo_1b_ab_apply]
  rfl

/-- The maximum of each row of z, from −∞, kept as a column and spread over the row. -/
abbrev spreadMax (z : FVec Ideal S400x64 .f32) : FVec Ideal S400x64 .f32 :=
  broadcastTo S400x64
    (shapeCast S400x1 (multiReduction (F := Ideal) .maximumf [1] S400 z 0xFF800000#32 reduces_S400x64_S400 (.inl rfl) rfl)
      shapeCasts_S400_S400x1)
    broadcasts_S400x1_S400x64

/-- The spread maximum at (p, l) is the maximum of row p. -/
theorem spreadMax_apply (z : FVec Ideal S400x64 .f32) (p : Fin 400) (l : Fin 64) :
    spreadMax z (ix2 p l) = Cert.Spec.rowMax z p :=
  (Cert.Lib.RowReduce.broadcastTo_a1_ab_apply _ broadcasts_S400x1_S400x64 p l).trans
    (Cert.Lib.RowReduce.rowMax z 0xFF800000#32 reduces_S400x64_S400 (.inl rfl) rfl shapeCasts_S400_S400x1 p 0)

/-- The log-softmax of z along each row as the kernel computes it: with m the spread maximum, (z − m) minus the spread
    logarithm of the lane sum of exp (z − m). -/
theorem lsm (z : FVec Ideal S400x64 .f32) (p : Fin 400) (q : Fin 64) :
    subf (subf z (spreadMax z))
        (broadcastTo S400x64
          (log (shapeCast S400x1
            (multiReduction (F := Ideal) .add [1] S400 (exp (subf z (spreadMax z))) 0x00000000#32 reduces_S400x64_S400
              (.inl rfl) rfl)
            shapeCasts_S400_S400x1))
          broadcasts_S400x1_S400x64) (ix2 p q)
      = Cert.Spec.logSoftmax z (ix2 p q) := by
  have hsub : ∀ l : Fin 64, subf z (spreadMax z) (ix2 p l) = z (ix2 p l) - Cert.Spec.rowMax z p := fun l =>
    (subf_apply z (spreadMax z) (ix2 p l)).trans (congrArg (fun t => z (ix2 p l) - t) (spreadMax_apply z p l))
  refine (subf_apply _ _ (ix2 p q)).trans ?_
  rw [hsub q, Cert.Lib.RowReduce.broadcastTo_a1_ab_apply]
  have hsum : shapeCast S400x1
        (multiReduction (F := Ideal) .add [1] S400 (exp (subf z (spreadMax z))) 0x00000000#32 reduces_S400x64_S400
          (.inl rfl) rfl)
        shapeCasts_S400_S400x1 (ix2 p 0)
      = ∑ l : Fin 64, Ideal.exp (z (ix2 p l) - Cert.Spec.rowMax z p) :=
    (Cert.Lib.RowReduce.rowSum (exp (subf z (spreadMax z))) 0x00000000#32 reduces_S400x64_S400 (.inl rfl) rfl
      shapeCasts_S400_S400x1 p 0).trans
      (Finset.sum_congr rfl fun l _ => congrArg Ideal.exp (hsub l))
  exact congrArg (fun t => z (ix2 p q) - Cert.Spec.rowMax z p - Ideal.log t) hsum

/-- The second kernel's block of rows: the log-softmax of a · s + b along each row. -/
theorem pay1_2 (a : Vec Ideal S400x10000 .f32) (s : Vec Ideal S10000x64 .f32) (b : Vec Ideal S1x64 .f32) :
    k1_pay2 (F := Ideal) a s b = Cert.Spec.logSoftmax (Cert.Spec.affine a s b) := by
  funext j
  obtain ⟨p, q, rfl⟩ : ∃ (p : Fin 400) (q : Fin 64), j = ix2 p q := ⟨j 0, j 1, eq_ix2 j⟩
  unfold k1_pay2
  rw [logits a s b]
  exact lsm (Cert.Spec.affine a s b) p q

end Cert.KernelIdeal.Pay

end
-- ==== Proof.IdealValue.lean ====
/-
  What the two pallas_calls leave in their output arrays, as whole-array functions of the arrays they find.

  Every window but the adjacency's and the output's is its whole array at every point; the adjacency's block at point t
  is rows 400·t … 400·t + 399 and so is the output's. The scratch holds the dense factor from the first point on, so the
  block point t writes back is the layer computed from the adjacency's rows of that block, which is that block of rows of
  the layer computed from the whole adjacency: each row of the layer reads only its own row of the adjacency. The blocks
  tile the output array, so after the run it holds the layer of the whole arrays.
-/
import proofs.«153151_g1580547973942_cont_week2b_924_2_alg».proof.Proof.IdealRegion0
import proofs.«153151_g1580547973942_cont_week2b_924_2_alg».proof.Proof.IdealRegion1
import proofs.«153151_g1580547973942_cont_week2b_924_2_alg».proof.Proof.IdealPieces
import proofs.«153151_g1580547973942_cont_week2b_924_2_alg».proof.Proof.KernelPay
import proofs.«153151_g1580547973942_cont_week2b_924_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

section Blocks

variable {F : FTy → Type} [FloatOps F]
variable (V : (c : Dev nD) → (b : Ref sig .tc) → Buf (Elt F) ((c : Thread nD τ).loc b))

/-! ## pallas_call 0 -/

/-- The printed index maps over the grid: the adjacency's and the output's row-block index is the point, every other
    block index is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 1's block is its whole array at every point. -/
theorem iblk0_1 (c : Dev nD) (t : Fin cfg0.N) : (iblk0 V c 1 t : S10000x128.Idx → Elt F .f32) = V c main_arg0 := by
  obtain ⟨-, -, e10, e11, e20, e21, e30, e31, -, -⟩ := idx_facts0 t
  funext y
  show V c main_arg0 (((cfg0.win 1).blk t).view.emb y) = V c main_arg0 y
  refine congrArg _ (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega
/-- Window 2's block is its whole array at every point. -/
theorem iblk0_2 (c : Dev nD) (t : Fin cfg0.N) : (iblk0 V c 2 t : S128x128.Idx → Elt F .f32) = V c main_arg2 := by
  obtain ⟨-, -, e10, e11, e20, e21, e30, e31, -, -⟩ := idx_facts0 t
  funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
/-- Window 3's block is its whole array at every point. -/
theorem iblk0_3 (c : Dev nD) (t : Fin cfg0.N) : (iblk0 V c 3 t : S1x128.Idx → Elt F .f32) = V c main_call0_v0 := by
  obtain ⟨-, -, e10, e11, e20, e21, e30, e31, -, -⟩ := idx_facts0 t
  funext y
  show V c main_call0_v0 (((cfg0.win 3).blk t).view.emb y) = V c main_call0_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The scratch after the first point holds the dense factor it stored. -/
theorem scratch0_first (c : Dev nD) (t : Fin cfg0.N) (h0 : t.val = 0) :
    (outsAt0 V c t.val t.isLt).2 = k0_pay1 (V c main_arg0) (V c main_arg2) := by
  rw [outsAt0_A V c t h0]
  dsimp only
  rw [sout0_A_eq c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t)]
  rw [iblk0_1 V c t, iblk0_2 V c t]

/-- The scratch after every point holds the dense factor the first point stored. -/
theorem scratch0 (c : Dev nD) : ∀ (n : ℕ) (hn : n < cfg0.N),
    (outsAt0 V c n hn).2 = k0_pay1 (V c main_arg0) (V c main_arg2)
  | 0, hn => scratch0_first V c ⟨0, hn⟩ rfl
  | n + 1, hn => (show (outsAt0 V c (n + 1) hn).2 = (outsAt0 V c n (Nat.lt_of_succ_lt hn)).2 from rfl).trans (scratch0 c n _)

/-- The output block after point t: the second payload of the adjacency's block, the dense factor and the bias row. -/
theorem out0_at (c : Dev nD) (t : Fin cfg0.N) :
    (outsAt0 V c t.val t.isLt).1 = k0_pay2 (iblk0 V c 0 t) (k0_pay1 (V c main_arg0) (V c main_arg2)) (V c main_call0_v0) := by
  by_cases h0 : t.val = 0
  · rw [outsAt0_A V c t h0]
    dsimp only
    rw [out0_A_eq c (grid0.coords t) (ms0_0 t) (hs0_0 t) (ms0_1 t) (hs0_1 t) (ms0_2 t) (hs0_2 t) (ms0_3 t) (hs0_3 t) (ms0_4 t) (hs0_4 t) scM0 (Memref.isWhole_whole _) ((hcond0 t).mpr h0) (iblk0 V c 0 t) (iblk0 V c 1 t) (iblk0 V c 2 t) (iblk0 V c 3 t)]
    rw [iblk0_1 V c t, iblk0_2 V c t, iblk0_3 V c t]
  · rw [outsAt0_B V c t h0]
    dsimp only
    rw [out0_B_eq c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0 t).mp h)) (iblk0 V c 0 t) (iblk0 V c 1 t) (iblk0 V c 2 t) (iblk0 V c 3 t)
      (outsAt0 V c (t.val - 1) (Nat.lt_of_le_of_lt (Nat.sub_le _ _) t.isLt)).2]
    rw [scratch0 V c (t.val - 1) (Nat.lt_of_le_of_lt (Nat.sub_le _ _) t.isLt), iblk0_3 V c t]

/-- An index of the output array is in point t's block iff each coordinate is in the block's range on its axis. -/
theorem mem_blk0 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_call0_v1).slice (win0_4.rect t)).set ↔ _
  rw [View.set_slice_whole, Rect.mem_set_unit]
  exact Iff.rfl

/-- Every index of the output array is in the block of the point its row belongs to. -/
theorem cover0 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, -, -, e40, e41⟩ := idx_facts0 t
  have ht : t.val = (i 0).val / 400 := rfl
  refine ⟨t, flush0_4 t, ?_⟩
  rw [mem_blk0]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-! ## pallas_call 1 -/

/-- The printed index maps over the grid: the adjacency's and the output's row-block index is the point, every other
    block index is 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 1's block is its whole array at every point. -/
theorem iblk1_1 (c : Dev nD) (t : Fin cfg1.N) : (iblk1 V c 1 t : S10000x128.Idx → Elt F .f32) = V c main_call0_v1 := by
  obtain ⟨-, -, e10, e11, e20, e21, e30, e31, -, -⟩ := idx_facts1 t
  funext y
  show V c main_call0_v1 (((cfg1.win 1).blk t).view.emb y) = V c main_call0_v1 y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 128 + 1 * (y 1).val = (y 1).val; omega
/-- Window 2's block is its whole array at every point. -/
theorem iblk1_2 (c : Dev nD) (t : Fin cfg1.N) : (iblk1 V c 2 t : S128x64.Idx → Elt F .f32) = V c main_arg4 := by
  obtain ⟨-, -, e10, e11, e20, e21, e30, e31, -, -⟩ := idx_facts1 t
  funext y
  show V c main_arg4 (((cfg1.win 2).blk t).view.emb y) = V c main_arg4 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega
/-- Window 3's block is its whole array at every point. -/
theorem iblk1_3 (c : Dev nD) (t : Fin cfg1.N) : (iblk1 V c 3 t : S1x64.Idx → Elt F .f32) = V c main_call0_v2 := by
  obtain ⟨-, -, e10, e11, e20, e21, e30, e31, -, -⟩ := idx_facts1 t
  funext y
  show V c main_call0_v2 (((cfg1.win 3).blk t).view.emb y) = V c main_call0_v2 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The scratch after the first point holds the dense factor it stored. -/
theorem scratch1_first (c : Dev nD) (t : Fin cfg1.N) (h0 : t.val = 0) :
    (outsAt1 V c t.val t.isLt).2 = k1_pay1 (V c main_call0_v1) (V c main_arg4) := by
  rw [outsAt1_A V c t h0]
  dsimp only
  rw [sout1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)]
  rw [iblk1_1 V c t, iblk1_2 V c t]

/-- The scratch after every point holds the dense factor the first point stored. -/
theorem scratch1 (c : Dev nD) : ∀ (n : ℕ) (hn : n < cfg1.N),
    (outsAt1 V c n hn).2 = k1_pay1 (V c main_call0_v1) (V c main_arg4)
  | 0, hn => scratch1_first V c ⟨0, hn⟩ rfl
  | n + 1, hn => (show (outsAt1 V c (n + 1) hn).2 = (outsAt1 V c n (Nat.lt_of_succ_lt hn)).2 from rfl).trans (scratch1 c n _)

/-- The output block after point t: the second payload of the adjacency's block, the dense factor and the bias row. -/
theorem out1_at (c : Dev nD) (t : Fin cfg1.N) :
    (outsAt1 V c t.val t.isLt).1 = k1_pay2 (iblk1 V c 0 t) (k1_pay1 (V c main_call0_v1) (V c main_arg4)) (V c main_call0_v2) := by
  by_cases h0 : t.val = 0
  · rw [outsAt1_A V c t h0]
    dsimp only
    rw [out1_A_eq c (grid1.coords t) (ms1_0 t) (hs1_0 t) (ms1_1 t) (hs1_1 t) (ms1_2 t) (hs1_2 t) (ms1_3 t) (hs1_3 t) (ms1_4 t) (hs1_4 t) scM1 (Memref.isWhole_whole _) ((hcond1 t).mpr h0) (iblk1 V c 0 t) (iblk1 V c 1 t) (iblk1 V c 2 t) (iblk1 V c 3 t)]
    rw [iblk1_1 V c t, iblk1_2 V c t, iblk1_3 V c t]
  · rw [outsAt1_B V c t h0]
    dsimp only
    rw [out1_B_eq c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1 t).mp h)) (iblk1 V c 0 t) (iblk1 V c 1 t) (iblk1 V c 2 t) (iblk1 V c 3 t)
      (outsAt1 V c (t.val - 1) (Nat.lt_of_le_of_lt (Nat.sub_le _ _) t.isLt)).2]
    rw [scratch1 V c (t.val - 1) (Nat.lt_of_le_of_lt (Nat.sub_le _ _) t.isLt), iblk1_3 V c t]

/-- An index of the output array is in point t's block iff each coordinate is in the block's range on its axis. -/
theorem mem_blk1 (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v0).slice (win1_4.rect t)).set ↔ _
  rw [View.set_slice_whole, Rect.mem_set_unit]
  exact Iff.rfl

/-- Every index of the output array is in the block of the point its row belongs to. -/
theorem cover1 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 25 := N_1
  let t : Fin cfg1.N := ⟨(i 0).val / 400, by rw [hN]; omega⟩
  obtain ⟨-, -, -, -, -, -, -, -, e40, e41⟩ := idx_facts1 t
  have ht : t.val = (i 0).val / 400 := rfl
  refine ⟨t, flush1_4 t, ?_⟩
  rw [mem_blk1]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

end Blocks

/-! ## At the ideal values -/

section AtIdeal

variable (V : (c : Dev nD) → (b : Ref sig .tc) → Buf (Elt Ideal) ((c : Thread nD τ).loc b))

/-- What point t of pallas_call 0 writes back is block t of the rectified layer of the whole arrays. -/
theorem flushed0_eq (c : Dev nD) (t : Fin cfg0.N) :
    (dat0 V c).flushed 4 t = ((cfg0.win 4).blk t).view.read (Elt Ideal)
      (Cert.Spec.reluLayer (V c main_arg1) (Cert.Spec.prod (V c main_arg0) (V c main_arg2)) (V c main_call0_v0)) := by
  show (cfg0.win 4).cut (grid0.coords t) ((dat0 V c).after 4 t) = _
  rw [after0_4, out0_at, Cert.KernelIdeal.Pay.pay0_2, Cert.KernelIdeal.Pay.pay0_1]
  obtain ⟨e00, e01, -, -, -, -, -, -, e40, e41⟩ := idx_facts0 t
  funext j
  show Cert.Spec.reluLayer (iblk0 V c 0 t) _ _ j = Cert.Spec.reluLayer (V c main_arg1) _ _ (((cfg0.win 4).blk t).view.emb j)
  refine Cert.Spec.reluLayer_congr _ _ _ _ j _ (fun k => ?_) (Fin.ext ?_)
  · show V c main_arg1 (((cfg0.win 0).blk t).view.emb (ix2 (j 0) k)) = _
    refine congrArg _ (funext fun a => Fin.ext ?_)
    match a with
    | ⟨0, _⟩ => show win0_0.index t (0 : Fin 2) * 400 + 1 * (j 0).val = win0_4.index t (0 : Fin 2) * 400 + 1 * (j 0).val; omega
    | ⟨1, _⟩ => show win0_0.index t (1 : Fin 2) * 10000 + 1 * k.val = k.val; omega
  · show (j 1).val = win0_4.index t (1 : Fin 2) * 128 + 1 * (j 1).val; omega

/-- After pallas_call 0 its output array holds the rectified layer of the arrays it found. -/
theorem final0 (c : Dev nD) : (dat0 V c).arrAt 4 cfg0.N
    = Cert.Spec.reluLayer (V c main_arg1) (Cert.Spec.prod (V c main_arg0) (V c main_arg2)) (V c main_call0_v0) :=
  (dat0 V c).arrAt_eq_of_cover 4 _ (fun t _ => flushed0_eq V c t) cover0

/-- What point t of pallas_call 1 writes back is block t of the log-softmax of the logits of the whole arrays. -/
theorem flushed1_eq (c : Dev nD) (t : Fin cfg1.N) :
    (dat1 V c).flushed 4 t = ((cfg1.win 4).blk t).view.read (Elt Ideal)
      (Cert.Spec.logSoftmax (Cert.Spec.affine (V c main_arg1) (Cert.Spec.prod (V c main_call0_v1) (V c main_arg4)) (V c main_call0_v2))) := by
  show (cfg1.win 4).cut (grid1.coords t) ((dat1 V c).after 4 t) = _
  rw [after1_4, out1_at, Cert.KernelIdeal.Pay.pay1_2, Cert.KernelIdeal.Pay.pay1_1]
  obtain ⟨e00, e01, -, -, -, -, -, -, e40, e41⟩ := idx_facts1 t
  funext j
  show Cert.Spec.logSoftmax (Cert.Spec.affine (iblk1 V c 0 t) _ _) j = Cert.Spec.logSoftmax (Cert.Spec.affine (V c main_arg1) _ _) (((cfg1.win 4).blk t).view.emb j)
  refine Cert.Spec.logSoftmax_congr _ _ j _ (fun l => ?_) (Fin.ext ?_)
  · refine Cert.Spec.affine_congr _ _ _ _ _ _ (fun k => ?_) rfl
    show V c main_arg1 (((cfg1.win 0).blk t).view.emb (ix2 (j 0) k)) = _
    refine congrArg _ (funext fun a => Fin.ext ?_)
    match a with
    | ⟨0, _⟩ => show win1_0.index t (0 : Fin 2) * 400 + 1 * (j 0).val = win1_4.index t (0 : Fin 2) * 400 + 1 * (j 0).val; omega
    | ⟨1, _⟩ => show win1_0.index t (1 : Fin 2) * 10000 + 1 * k.val = k.val; omega
  · show (j 1).val = win1_4.index t (1 : Fin 2) * 64 + 1 * (j 1).val; omega

/-- After pallas_call 1 its output array holds the log-softmax of the logits of the arrays it found. -/
theorem final1 (c : Dev nD) : (dat1 V c).arrAt 4 cfg1.N
    = Cert.Spec.logSoftmax (Cert.Spec.affine (V c main_arg1) (Cert.Spec.prod (V c main_call0_v1) (V c main_arg4)) (V c main_call0_v2)) :=
  (dat1 V c).arrAt_eq_of_cover 4 _ (fun t _ => flushed1_eq V c t) cover1

end AtIdeal

end Cert.KernelIdeal.Hand

end
-- ==== Proof.IdealResult.lean ====
/-
  The result of the idealized kernel program as the one function of its six arguments.

  Walking the boundaries: pallas_call 0 finds the arguments as launched and the first bias re-laid as a [1, 128] row, and
  leaves the rectified first layer h1; pallas_call 1 finds the adjacency and the second weights as launched, h1 where
  pallas_call 0 left it and the second bias re-laid as a [1, 64] row, and leaves the log-softmax of the second layer's
  logits: the specification's function of the six arguments.
-/
import proofs.«153151_g1580547973942_cont_week2b_924_2_alg».proof.Proof.IdealFrame
import proofs.«153151_g1580547973942_cont_week2b_924_2_alg».proof.Proof.IdealValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

/-- A vector of length B re-laid as a [1, B] array is its one row. -/
theorem shapeCast_row {B : Nat} (b : (⟨1, ![B]⟩ : Shape).Idx → EReal) (h : (⟨1, ![B]⟩ : Shape).ShapeCasts ⟨2, ![1, B]⟩) :
    shapeCast ⟨2, ![1, B]⟩ b h = Cert.Spec.rowOf b := by
  funext i
  obtain ⟨u, l, rfl⟩ : ∃ (u : Fin 1) (l : Fin B), i = ix2 u l := ⟨i 0, i 1, eq_ix2 i⟩
  show shapeCast _ b h (ix2 u l) = b (ix1 l)
  refine shapeCast_apply b h _ (ix1 l) ?_
  have hu : u.val = 0 := by omega
  rw [Shape.rowMajor_val_two, Shape.rowMajor_val_one]
  show l.val = u.val * B + l.val
  rw [hu, Nat.zero_mul, Nat.zero_add]

variable (m : (ℓ : Loc nD τ sig) → Buf (Elt Ideal) ℓ)

/-! ## What pallas_call 0 finds -/

theorem U1_arg0 (c : Dev nD) : U1 m c main_arg0 = m ((c : Thread nD τ).loc main_arg0) :=
  StableHlo.after_of_writes_sub hostOps0 _ hostOps0_writes (by decide)
theorem U1_arg1 (c : Dev nD) : U1 m c main_arg1 = m ((c : Thread nD τ).loc main_arg1) :=
  StableHlo.after_of_writes_sub hostOps0 _ hostOps0_writes (by decide)
theorem U1_arg2 (c : Dev nD) : U1 m c main_arg2 = m ((c : Thread nD τ).loc main_arg2) :=
  StableHlo.after_of_writes_sub hostOps0 _ hostOps0_writes (by decide)
/-- The first bias, re-laid as a row. -/
theorem U1_bias (c : Dev nD) : (U1 m c main_call0_v0 : S1x128.Idx → EReal)
    = shapeCast S1x128 (m ((c : Thread nD τ).loc main_arg3)) shapeCasts_S128_S1x128 := by
  dsimp only [U1, W1, W0, hostOps0]; after_results; rfl

/-- After pallas_call 0 its output array holds the first layer of the arguments. -/
theorem hidden_eq (c : Dev nD) : ((dat0 (U1 m) c).arrAt 4 cfg0.N : S10000x128.Idx → EReal)
    = Cert.Spec.hidden (m ((c : Thread nD τ).loc main_arg0)) (m ((c : Thread nD τ).loc main_arg1)) (m ((c : Thread nD τ).loc main_arg2)) (m ((c : Thread nD τ).loc main_arg3)) := by
  rw [final0 (U1 m) c, U1_arg0, U1_arg1, U1_arg2, U1_bias, shapeCast_row]
  rfl

/-! ## What pallas_call 1 finds -/

theorem U3_arg1 (c : Dev nD) : U3 m c main_arg1 = m ((c : Thread nD τ).loc main_arg1) :=
  calc W3 m c (Proc.devRef .tc main_arg1)
    _ = W2 m c (Proc.devRef .tc main_arg1) := StableHlo.after_of_writes_sub hostOps1 _ hostOps1_writes (by decide)
    _ = W1 m c (Proc.devRef .tc main_arg1) := (W2_arr m c 0).trans (((dat0 (U1 m) c).arrAt_in 0 rfl _).trans (A_eq0 (U1 m) c 0))
    _ = m ((c : Thread nD τ).loc main_arg1) := U1_arg1 m c
theorem U3_arg4 (c : Dev nD) : U3 m c main_arg4 = m ((c : Thread nD τ).loc main_arg4) :=
  calc W3 m c (Proc.devRef .tc main_arg4)
    _ = W2 m c (Proc.devRef .tc main_arg4) := StableHlo.after_of_writes_sub hostOps1 _ hostOps1_writes (by decide)
    _ = W1 m c (Proc.devRef .tc main_arg4) := W2_of_ne m c main_arg4 (by decide)
    _ = m ((c : Thread nD τ).loc main_arg4) := StableHlo.after_of_writes_sub hostOps0 _ hostOps0_writes (by decide)
/-- The first layer, where pallas_call 0 left it. -/
theorem U3_hidden (c : Dev nD) : U3 m c main_call0_v1 = (dat0 (U1 m) c).arrAt 4 cfg0.N :=
  calc W3 m c (Proc.devRef .tc main_call0_v1)
    _ = W2 m c (Proc.devRef .tc main_call0_v1) := StableHlo.after_of_writes_sub hostOps1 _ hostOps1_writes (by decide)
    _ = (dat0 (U1 m) c).arrAt 4 cfg0.N := W2_arr m c 4
/-- The second bias, re-laid as a row. -/
theorem U3_bias (c : Dev nD) : (U3 m c main_call0_v2 : S1x64.Idx → EReal)
    = shapeCast S1x64 (m ((c : Thread nD τ).loc main_arg5)) shapeCasts_S64_S1x64 := by
  have h5 : W2 m c (Proc.devRef .tc main_arg5) = m ((c : Thread nD τ).loc main_arg5) :=
    (W2_of_ne m c main_arg5 (by decide)).trans (StableHlo.after_of_writes_sub hostOps0 _ hostOps0_writes (by decide))
  rw [← h5]
  dsimp only [U3, W3, hostOps1]; after_results; rfl

/-- The result buffer after the run holds the specification's function of the six arguments. -/
theorem result_eq (c : Dev nD) : ((dat1 (U3 m) c).arrAt 4 cfg1.N : S10000x64.Idx → EReal)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final1 (U3 m) c, U3_arg1, U3_arg4, U3_hidden, hidden_eq, U3_bias, shapeCast_row]
  rfl

/-- Every weakly fair execution of the idealized kernel program terminates with its result at the specification's
    function of the arguments and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m c), (h c).2⟩) (run_main m ρ)

end Cert.KernelIdeal.Hand

end
-- ==== Proof.LibRowFold.lean ====
/-
  A HOST REDUCTION ALONG THE LAST AXIS OF A MATRIX, READ AT A ROW — generic in the two extents.

  A one-operand `stablehlo.reduce` of an [A, B] array along axis 1 whose body is commutative and associative (a maximum,
  a minimum) computes, at row j, the fold of the body from the initial value over the B entries of row j — in any order,
  since the body is commutative and associative:

  * `reduce_row_fold`  — Host.reduce f x init … j = (Finset.univ : Finset (Fin B)).fold f (init ·) (fun k => x (ix2 (j 0) k));
  * `fold_maximumf`    — over the extended reals the fold by the float maximum is the fold by `max`.

  Nothing here depends on a program.
-/
import Idealize.ShloMosaic.PureOps.Ideal
import Idealize.ShloMosaic.PureOps.Ideal.Laws
import Idealize.ShloMosaic.PureOps.Reduce
import Idealize.ShloMosaic.Lib.ValueIdx

noncomputable section

namespace Cert.Lib.RowFold

open Idealize.ShloMosaic Idealize.ShloMosaic.ValueIdx

/-- A one-operand reduce of an [A, B] array along axis 1 with a commutative associative body is, at row j, the fold
    from the initial value over the row's entries. -/
theorem reduce_row_fold {A B : Nat} (f : EReal → EReal → EReal) [Std.Commutative f] [Std.Associative f]
    (h' : (⟨2, ![A, B]⟩ : Shape).ReducesTo [1] ⟨1, ![A]⟩) (h : (⟨2, ![A, B]⟩ : Shape).Reduces [1] ⟨1, ![A]⟩)
    (x : (⟨2, ![A, B]⟩ : Shape).Idx → EReal) (init : (⟨0, ![]⟩ : Shape).Idx → EReal)
    (hu : 0 < (⟨0, ![]⟩ : Shape).numel) (j : (⟨1, ![A]⟩ : Shape).Idx) :
    Host.reduce f x init h' hu j
      = (Finset.univ : Finset (Fin B)).fold f (init (Shape.Idx.first hu)) (fun k => x (ix2 (j 0) k)) := by
  rw [Host.reduce_eq_fold_single f x init h' h hu j]
  show (Finset.univ : Finset (Fin B)).fold f (init (Shape.Idx.first hu)) (x ∘ h.lift j) = _
  refine congrArg (fun g => (Finset.univ : Finset (Fin B)).fold f _ g) (funext fun k => congrArg x ?_)
  exact funext fun a => Fin.ext (by match a with | ⟨0, _⟩ => rfl | ⟨1, _⟩ => rfl)

/-- At the ideal values the fold by the float maximum is the fold by max. -/
theorem fold_maximumf {ι : Type} (s : Finset ι) (b : EReal) (g : ι → EReal) :
    s.fold (FloatOps.maximumf (F := Ideal) (φ := .f32)) b g = s.fold max b g := rfl

end Cert.Lib.RowFold

end
-- ==== Proof.RefValue.lean ====
/-
  The reference's result as the one function of its arguments.
-/
import proofs.«153151_g1580547973942_cont_week2b_924_2_alg».proof.Proof.RefRead
import proofs.«153151_g1580547973942_cont_week2b_924_2_alg».proof.Proof.Spec
import proofs.«153151_g1580547973942_cont_week2b_924_2_alg».proof.Proof.LibPlainDot
import proofs.«153151_g1580547973942_cont_week2b_924_2_alg».proof.Proof.LibRowFold

noncomputable section

open scoped BigOperators

namespace Cert.ReferenceIdeal.RefValue

open Idealize.ShloMosaic Idealize.ShloMosaic.ValueIdx Cert.ReferenceIdeal Cert.ReferenceIdeal.Gen
open Cert.ReferenceIdeal.ReadP
open Idealize.ShloMosaic.TcCoe Idealize.SL.Sem

variable (x : S10000x128.Idx → EReal) (adj : S10000x10000.Idx → EReal) (W1 : S128x128.Idx → EReal)
  (b1 : S128.Idx → EReal) (W2 : S128x64.Idx → EReal) (b2 : S64.Idx → EReal)

/-- x · W1 is the textbook product. -/
theorem v0_eq : val_main_v0 (F := Ideal) x W1 = Cert.Spec.prod x W1 := by
  funext j
  refine (val_main_v0_apply x W1 j).trans ?_
  unfold Cert.Spec.prod
  refine Finset.sum_congr rfl fun k _ => ?_
  exact congrArg₂ (fun (a : S10000x128.Idx) (b : S128x128.Idx) => x a * W1 b)
    (funext fun a => by match a with | ⟨0, _⟩ => rfl | ⟨1, _⟩ => rfl)
    (funext fun a => by match a with | ⟨0, _⟩ => rfl | ⟨1, _⟩ => rfl)

/-- adj · (x · W1) is the textbook product of the textbook product. -/
theorem v1_eq : val_main_v1 (F := Ideal) x adj W1 = Cert.Spec.prod adj (Cert.Spec.prod x W1) := by
  funext j
  refine (val_main_v1_apply x adj W1 j).trans ?_
  rw [v0_eq]
  show _ = ∑ k : Fin 10000, adj (ix2 (j 0) k) * Cert.Spec.prod x W1 (ix2 k (j 1))
  refine Finset.sum_congr rfl fun k _ => ?_
  exact congrArg₂ (fun (a : S10000x10000.Idx) (b : S10000x128.Idx) => adj a * Cert.Spec.prod x W1 b)
    (funext fun a => by match a with | ⟨0, _⟩ => rfl | ⟨1, _⟩ => rfl)
    (funext fun a => by match a with | ⟨0, _⟩ => rfl | ⟨1, _⟩ => rfl)

/-- The first bias broadcast to every row reads the bias row's entry of the column. -/
theorem v3_apply (j : S10000x128.Idx) : val_main_v3 (F := Ideal) b1 j = Cert.Spec.rowOf b1 (ix2 0 (j 1)) := by
  refine (val_main_v3_apply (F := Ideal) b1 j).trans ((val_main_v2_apply (F := Ideal) b1 _).trans ?_)
  unfold Cert.Spec.rowOf
  exact congrArg b1 (funext fun a => by match a with | ⟨0, _⟩ => rfl)

/-- The rectified first layer is the specification's hidden array. -/
theorem v5_eq : val_main_v5 (F := Ideal) x adj W1 b1 = Cert.Spec.hidden x adj W1 b1 := by
  funext j
  rw [val_main_v5_apply, val_main_v4_apply, v1_eq, v3_apply, val_main_call0_v0_apply, val_main_call0_cst_apply]
  rw [Ideal.maximumf_def, Ideal.addf_def, Ideal.ofBits_def, Ideal.ofBits_zero_f32]
  rfl

/-- h · W2 is the textbook product. -/
theorem v6_eq :
    val_main_v6 (F := Ideal) x adj W1 b1 W2 = Cert.Spec.prod (Cert.Spec.hidden x adj W1 b1) W2 := by
  funext j
  refine (val_main_v6_apply x adj W1 b1 W2 j).trans ?_
  rw [v5_eq]
  show _ = ∑ k : Fin 128, Cert.Spec.hidden x adj W1 b1 (ix2 (j 0) k) * W2 (ix2 k (j 1))
  refine Finset.sum_congr rfl fun k _ => ?_
  exact congrArg₂ (fun (a : S10000x128.Idx) (b : S128x64.Idx) => Cert.Spec.hidden x adj W1 b1 a * W2 b)
    (funext fun a => by match a with | ⟨0, _⟩ => rfl | ⟨1, _⟩ => rfl)
    (funext fun a => by match a with | ⟨0, _⟩ => rfl | ⟨1, _⟩ => rfl)

/-- adj · (h · W2) is the textbook product of the textbook product. -/
theorem v7_eq :
    val_main_v7 (F := Ideal) x adj W1 b1 W2
      = Cert.Spec.prod adj (Cert.Spec.prod (Cert.Spec.hidden x adj W1 b1) W2) := by
  funext j
  refine (val_main_v7_apply x adj W1 b1 W2 j).trans ?_
  rw [v6_eq]
  show _ = ∑ k : Fin 10000, adj (ix2 (j 0) k) * Cert.Spec.prod (Cert.Spec.hidden x adj W1 b1) W2 (ix2 k (j 1))
  refine Finset.sum_congr rfl fun k _ => ?_
  exact congrArg₂ (fun (a : S10000x10000.Idx) (b : S10000x64.Idx) =>
      adj a * Cert.Spec.prod (Cert.Spec.hidden x adj W1 b1) W2 b)
    (funext fun a => by match a with | ⟨0, _⟩ => rfl | ⟨1, _⟩ => rfl)
    (funext fun a => by match a with | ⟨0, _⟩ => rfl | ⟨1, _⟩ => rfl)

/-- The second bias broadcast to every row reads the bias row's entry of the column. -/
theorem v9_apply (j : S10000x64.Idx) : val_main_v9 (F := Ideal) b2 j = Cert.Spec.rowOf b2 (ix2 0 (j 1)) := by
  refine (val_main_v9_apply (F := Ideal) b2 j).trans ((val_main_v8_apply (F := Ideal) b2 _).trans ?_)
  unfold Cert.Spec.rowOf
  exact congrArg b2 (funext fun a => by match a with | ⟨0, _⟩ => rfl)

/-- The second layer's logits are the affine layer of the specification. -/
theorem v10_eq :
    val_main_v10 (F := Ideal) x adj W1 b1 W2 b2
      = Cert.Spec.affine adj (Cert.Spec.prod (Cert.Spec.hidden x adj W1 b1) W2) (Cert.Spec.rowOf b2) := by
  funext j
  rw [val_main_v10_apply, v7_eq, v9_apply, Ideal.addf_def]
  rfl

local notation "Z" => val_main_v10 (F := Ideal) x adj W1 b1 W2 b2

/-- The host's maximum along each row is the fold of max from −∞ over the row's entries. -/
theorem call1_v0_apply (i : S10000.Idx) :
    val_main_call1_v0 (F := Ideal) x adj W1 b1 W2 b2 i = Cert.Spec.rowMax Z (i 0) := by
  unfold val_main_call1_v0
  refine (Cert.Lib.RowFold.reduce_row_fold (FloatOps.maximumf (F := Ideal) (φ := .f32))
    reducesTo_S10000x64_S10000_d1 (by decide) _ _ h_S_ i).trans ?_
  rfl

/-- The maximum with −∞ changes nothing: a fold of max from −∞ is at least −∞. -/
theorem call1_v2_apply (i : S10000.Idx) :
    val_main_call1_v2 (F := Ideal) x adj W1 b1 W2 b2 i = Cert.Spec.rowMax Z (i 0) := by
  rw [val_main_call1_v2_apply, call1_v0_apply, val_main_call1_v1_apply, val_main_call1_cst_0_apply,
    Ideal.maximumf_def, Ideal.ofBits_def]
  unfold Cert.Spec.rowMax
  exact max_eq_right ((Finset.le_fold_max _).2 (Or.inl le_rfl))

/-- The row maximum broadcast back to every column. -/
theorem call1_v4_apply (j : S10000x64.Idx) :
    val_main_call1_v4 (F := Ideal) x adj W1 b1 W2 b2 j = Cert.Spec.rowMax Z (j 0) := by
  rw [val_main_call1_v4_apply, val_main_call1_v3_apply, call1_v2_apply]
  rfl

/-- The shifted logits. -/
theorem call1_v5_apply (j : S10000x64.Idx) :
    val_main_call1_v5 (F := Ideal) x adj W1 b1 W2 b2 j = Z j - Cert.Spec.rowMax Z (j 0) := by
  rw [val_main_call1_v5_apply, call1_v4_apply, Ideal.subf_def]

/-- The exponentials of the shifted logits. -/
theorem call1_v6_apply (j : S10000x64.Idx) :
    val_main_call1_v6 (F := Ideal) x adj W1 b1 W2 b2 j = Ideal.exp (Z j - Cert.Spec.rowMax Z (j 0)) := by
  rw [val_main_call1_v6_apply, call1_v5_apply, Ideal.hostUnary_exp_def]

/-- The sum of the exponentials along a row. -/
theorem call1_v7_apply (i : S10000.Idx) :
    val_main_call1_v7 (F := Ideal) x adj W1 b1 W2 b2 i
      = ∑ l : Fin 64, Ideal.exp (Z (ix2 (i 0) l) - Cert.Spec.rowMax Z (i 0)) := by
  rw [val_main_call1_v7_apply, val_main_call1_cst_1_apply, Ideal.ofBits_def, Ideal.ofBits_zero_f32, zero_add]
  refine Finset.sum_congr rfl fun l _ => ?_
  rw [call1_v6_apply]
  have e : idx_main_call1_v7 i l = ix2 (i 0) l :=
    funext fun a => by match a with | ⟨0, _⟩ => rfl | ⟨1, _⟩ => rfl
  rw [e]
  rfl

/-- The logarithm of the row's sum, broadcast back to every column. -/
theorem call1_v10_apply (j : S10000x64.Idx) :
    val_main_call1_v10 (F := Ideal) x adj W1 b1 W2 b2 j
      = Ideal.log (∑ l : Fin 64, Ideal.exp (Z (ix2 (j 0) l) - Cert.Spec.rowMax Z (j 0))) := by
  rw [val_main_call1_v10_apply, val_main_call1_v9_apply, val_main_call1_v8_apply, call1_v7_apply,
    Ideal.hostUnary_log_def]
  rfl

/-- The last stage is the log-softmax of the logits. -/
theorem v11_eq : val_main_v11 (F := Ideal) x adj W1 b1 W2 b2 = Cert.Spec.logSoftmax Z := by
  funext j
  rw [val_main_v11_apply, call1_v5_apply, call1_v10_apply, Ideal.subf_def]
  rfl

/-- The reference's last stage is the specification's function of the six arrays. -/
theorem val_eq : val_main_v11 (F := Ideal) x adj W1 b1 W2 b2 = Cert.Spec.G x adj W1 b1 W2 b2 := by
  rw [v11_eq, v10_eq]
  rfl

/-- The run's result term is the specification's function of the six argument arrays. -/
theorem res_eq (m : (ℓ : Loc nD τ sig) → Buf (Elt Ideal) ℓ) (c : Dev nD) :
    (Cert.ReferenceIdeal.ValueP.res_out0 (F := Ideal) m c : S10000x64.Idx → EReal)
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v11_eq (F := Ideal) m c).trans
    (val_eq (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)))

end Cert.ReferenceIdeal.RefValue

end
-- ==== Proof.lean ====
/-
  A two-layer graph convolution on a dense adjacency, as a pair of row-blocked kernels, against its plain reference:
      h1  = max (adj · (x · W1) + b1, 0)
      out = log-softmax along each row of  adj · (h1 · W2) + b2.
  Each kernel walks the adjacency in blocks of 400 rows; at its first grid point it computes the small dense factor
  (x · W1, resp. h1 · W2) once into a scratch buffer that stays resident, and at every point it multiplies the block of
  adjacency rows by that factor, adds the bias row and applies the rectifier (resp. the row-wise log-softmax). A row of
  either layer reads only its own row of the adjacency, so the blocks the grid points write back are the blocks of rows
  of the layer of the whole arrays, and they tile the output. On the extended reals the reference computes the same
  sums, the same maxima and the same logarithms of sums of exponentials (its extra maximum with −∞ is the identity), so
  the two results are one function of the six arguments, with no condition on them.

  The three frames: each kernel program's run is assembled from its four segments — two reshapes of a bias and the two
  kernel regions, each region carrying its scratch from point to point in its invariant — and ends with every argument as
  launched; the reference's frame is its run with the result dropped. The idealization rewrote nothing.
-/
import proofs.«153151_g1580547973942_cont_week2b_924_2_alg».proof.Defs
import proofs.«153151_g1580547973942_cont_week2b_924_2_alg».proof.Proof.Gen.Kernel
import proofs.«153151_g1580547973942_cont_week2b_924_2_alg».proof.Proof.Gen.KernelIdeal
import proofs.«153151_g1580547973942_cont_week2b_924_2_alg».proof.Proof.Gen.ReferenceIdeal
import proofs.«153151_g1580547973942_cont_week2b_924_2_alg».proof.Proof.Gen.Pre_finite_inputs
import proofs.«153151_g1580547973942_cont_week2b_924_2_alg».proof.Proof.BitsFrame
import proofs.«153151_g1580547973942_cont_week2b_924_2_alg».proof.Proof.IdealFrame
import proofs.«153151_g1580547973942_cont_week2b_924_2_alg».proof.Proof.IdealResult
import proofs.«153151_g1580547973942_cont_week2b_924_2_alg».proof.Proof.RefValue
import Idealize.ShloMosaic.Adequacy
import Idealize.ShloMosaic.Init

noncomputable section

namespace Cert.Proof

open Idealize.ShloMosaic Idealize.SL.Sem

/-- The kernel program as printed runs to the end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the specification's function of the six arguments in their result buffer. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.res_eq m' c).trans ?_
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
